-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S256x128 .f32) (main_arg4 : FVec F S128 .f32) (main_arg5 : FVec F S128 .f32) (main_arg6 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩

abbrev nBuf : Space → Nat
  | .hbm => 83
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000, .f32⟩
  | .hbm, ⟨42, _⟩ => ⟨S100000x1, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_c_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_10 : Ref sig .tc := ⟨.hbm, 55, rfl⟩
abbrev main_v32 : Ref sig .tc := ⟨.hbm, 56, rfl⟩
abbrev main_v33 : Ref sig .tc := ⟨.hbm, 57, rfl⟩
abbrev main_c_11 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40_0 : Ref sig .tc := ⟨.hbm, 65, rfl⟩
abbrev main_v40_1 : Ref sig .tc := ⟨.hbm, 66, rfl⟩
abbrev main_v40_2 : Ref sig .tc := ⟨.hbm, 67, rfl⟩
abbrev main_cst_12 : Ref sig .tc := ⟨.hbm, 68, rfl⟩
abbrev main_v41 : Ref sig .tc := ⟨.hbm, 69, rfl⟩
abbrev main_v42 : Ref sig .tc := ⟨.hbm, 70, rfl⟩
abbrev main_cst_13 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_14 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v40_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S100000x128, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_c_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_c_8 : Ref sig .tc := ⟨.hbm, 47, rfl⟩
abbrev main_v26 : Ref sig .tc := ⟨.hbm, 48, rfl⟩
abbrev main_v27 : Ref sig .tc := ⟨.hbm, 49, rfl⟩
abbrev main_c_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_10 : Ref sig .tc := ⟨.hbm, 56, rfl⟩
abbrev main_v33 : Ref sig .tc := ⟨.hbm, 57, rfl⟩
abbrev main_v34 : Ref sig .tc := ⟨.hbm, 58, rfl⟩
abbrev main_c_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call2_cst : Ref sig .tc := ⟨.hbm, 71, rfl⟩
abbrev main_call2_v0 : Ref sig .tc := ⟨.hbm, 72, rfl⟩
abbrev main_v46 : Ref sig .tc := ⟨.hbm, 73, rfl⟩
abbrev main_cst_12 : Ref sig .tc := ⟨.hbm, 74, rfl⟩
abbrev main_v47 : Ref sig .tc := ⟨.hbm, 75, rfl⟩
abbrev main_cst_13 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_14 : Ref sig .tc := ⟨.hbm, 83, rfl⟩
abbrev main_v54 : Ref sig .tc := ⟨.hbm, 84, rfl⟩
abbrev main_cst_15 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_16 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel program's run, with its result named: every weakly fair execution of @main from a memory with
  zero counters terminates without a fault, the argument arrays unchanged, and the returned array holding what the
  third region's write-backs leave — the contents of the last segment boundary read at the result buffer. The three
  regions and the host stretches between them are run by the several-region launch theorem over the generated
  segments; only the final read differs from the frame claim: it also reads the result buffer.
-/
import proofs.«160708_j19052474925490_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main with the result buffer read: at the end the result array is the last boundary's contents at the
    result reference, and every argument array is as launched. -/
theorem run_result : θ_run defs (onTc (τ := τ) (main (F := F))) ⟨m, fun _ => 0, ρ⟩ (fun r => ∀ c : Dev nD,
      r.2.mem ((c.tc : Thread nD τ).loc main_v52) = W10 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v52 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Gen

end
-- ==== Proof.HostReads.lean ====
/-
  What the three regions find in their arrays: the buffers at each region's entry, read back through the host
  operations that run before it.

  Before the first region the host counts each node's out-degree and in-degree by scattering ones, clamps the counts
  below at one, takes the reciprocal square root, and lays each normaliser out as a one-column array; the first
  region's operands are the node features, the weights, and the source normaliser's column. Between the first and
  second regions the host gathers the rows of the first region's result that the edges' sources name and adds them
  into the rows their destinations name; the second region's operands are that aggregate, the destination
  normaliser's column and the bias as a one-row array. Between the second and third regions the host divides the two
  column sums by the number of rows, forms the variance as the mean of squares less the squared mean, adds the
  stabiliser and takes the reciprocal square root; the third region's operands are the activations, the mean, that
  reciprocal deviation, and the scale and shift vectors as one-row arrays.
-/
import proofs.«160708_j19052474925490_1_alg».proof.Proof.Gen.KernelIdeal.Frame
import Idealize.ShloMosaic.Lib.StableHlo.Run
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.StableHlo

/-- An edge list's node numbers as the one-column list of row numbers the host's gather and scatters take: a negative
    number wrapped once by the number of nodes, `select(i < 0, i + 100000, i)`. -/
def rowsOf (i : (⟨S1600000, .i32⟩ : BufTy).Contents (Elt Ideal)) : (⟨S1600000x1, .i32⟩ : BufTy).Contents (Elt Ideal) :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- A degree normaliser: the reciprocal square root of the count of edges naming each node, the count clamped below
    at one. -/
def normOf (i : (⟨S1600000, .i32⟩ : BufTy).Contents (Elt Ideal)) : (⟨S100000, .f32⟩ : BufTy).Contents (Elt Ideal) :=
  Host.rsqrt (maximumf (broadcastInDim S100000 ![] bcast_S_S100000 (id (constant (F := Ideal) S_ .f32 0x3F800000#32)))
    (Host.scatterAdd scatter_S100000_S1600000x1_S1600000_n_0_0_1
      (broadcastInDim S100000 ![] bcast_S_S100000 (constant (F := Ideal) S_ .f32 0x00000000#32)) (rowsOf i)
      (broadcastInDim S1600000 ![] bcast_S_S1600000 (constant (F := Ideal) S_ .f32 0x3F800000#32))))

/-- The message passing step: the rows of `h` the sources name, added into the rows the destinations name, from zero. -/
def aggOf (h : (⟨S100000x128, .f32⟩ : BufTy).Contents (Elt Ideal)) (src dst : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32)) (rowsOf dst)
    (Host.gather gather_S100000x128_S1600000x1_S1600000x128_1_0_n_n_0_1_1128 h (rowsOf src))

/-! ## One stretch of host operations at a time, over any contents `X` at the stretch's start -/

/-- A buffer that no operation of a stretch writes holds after the stretch what it held before. -/
macro "not_written_by " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

section Stretches
variable (X : Valuation τ sig (Elt Ideal))

set_option maxHeartbeats 2000000 in
/-- The first stretch counts the edges leaving each node … -/
theorem s0_v8 : after hostOps0 X (Proc.devRef .tc main_v8)
    = Host.scatterAdd scatter_S100000_S1600000x1_S1600000_n_0_0_1
      (broadcastInDim S100000 ![] bcast_S_S100000 (constant (F := Ideal) S_ .f32 0x00000000#32)) (rowsOf (X (Proc.devRef .tc main_arg1)))
      (broadcastInDim S1600000 ![] bcast_S_S1600000 (constant (F := Ideal) S_ .f32 0x3F800000#32)) := by
  after_results <;> rfl
set_option maxHeartbeats 2000000 in
/-- … and the edges entering each node, … -/
theorem s0_v16 : after hostOps0 X (Proc.devRef .tc main_v16)
    = Host.scatterAdd scatter_S100000_S1600000x1_S1600000_n_0_0_1
      (broadcastInDim S100000 ![] bcast_S_S100000 (constant (F := Ideal) S_ .f32 0x00000000#32)) (rowsOf (X (Proc.devRef .tc main_arg2)))
      (broadcastInDim S1600000 ![] bcast_S_S1600000 (constant (F := Ideal) S_ .f32 0x3F800000#32)) := by
  after_results <;> rfl
set_option maxHeartbeats 2000000 in
/-- … and ends by writing the lower clamp, one. -/
theorem s0_cst5 : after hostOps0 X (Proc.devRef .tc main_cst_5) = constant (F := Ideal) S_ .f32 0x3F800000#32 := by
  after_results
theorem s0_arg0 : after hostOps0 X (Proc.devRef .tc main_arg0) = X (Proc.devRef .tc main_arg0) := by not_written_by hostOps0
theorem s0_arg1 : after hostOps0 X (Proc.devRef .tc main_arg1) = X (Proc.devRef .tc main_arg1) := by not_written_by hostOps0
theorem s0_arg2 : after hostOps0 X (Proc.devRef .tc main_arg2) = X (Proc.devRef .tc main_arg2) := by not_written_by hostOps0
theorem s0_arg3 : after hostOps0 X (Proc.devRef .tc main_arg3) = X (Proc.devRef .tc main_arg3) := by not_written_by hostOps0
theorem s0_arg4 : after hostOps0 X (Proc.devRef .tc main_arg4) = X (Proc.devRef .tc main_arg4) := by not_written_by hostOps0
theorem s0_arg5 : after hostOps0 X (Proc.devRef .tc main_arg5) = X (Proc.devRef .tc main_arg5) := by not_written_by hostOps0
theorem s0_arg6 : after hostOps0 X (Proc.devRef .tc main_arg6) = X (Proc.devRef .tc main_arg6) := by not_written_by hostOps0

/-- The second stretch clamps the out-degree below at one. -/
theorem s1_v17 : after hostOps0_1 X (Proc.devRef .tc main_v17)
    = (maximumf (broadcastInDim S100000 ![] bcast_S_S100000 (id (X (Proc.devRef .tc main_cst_5)) : FVec Ideal S_ .f32))
        (X (Proc.devRef .tc main_v8) : FVec Ideal S100000 .f32) : FVec Ideal S100000 .f32) := by
  after_results <;> rfl
theorem s1_v16 : after hostOps0_1 X (Proc.devRef .tc main_v16) = X (Proc.devRef .tc main_v16) := by not_written_by hostOps0_1
theorem s1_arg0 : after hostOps0_1 X (Proc.devRef .tc main_arg0) = X (Proc.devRef .tc main_arg0) := by not_written_by hostOps0_1
theorem s1_arg1 : after hostOps0_1 X (Proc.devRef .tc main_arg1) = X (Proc.devRef .tc main_arg1) := by not_written_by hostOps0_1
theorem s1_arg2 : after hostOps0_1 X (Proc.devRef .tc main_arg2) = X (Proc.devRef .tc main_arg2) := by not_written_by hostOps0_1
theorem s1_arg3 : after hostOps0_1 X (Proc.devRef .tc main_arg3) = X (Proc.devRef .tc main_arg3) := by not_written_by hostOps0_1
theorem s1_arg4 : after hostOps0_1 X (Proc.devRef .tc main_arg4) = X (Proc.devRef .tc main_arg4) := by not_written_by hostOps0_1
theorem s1_arg5 : after hostOps0_1 X (Proc.devRef .tc main_arg5) = X (Proc.devRef .tc main_arg5) := by not_written_by hostOps0_1
theorem s1_arg6 : after hostOps0_1 X (Proc.devRef .tc main_arg6) = X (Proc.devRef .tc main_arg6) := by not_written_by hostOps0_1

/-- The third stretch writes the second clamp's bound, one. -/
theorem s2_cst6 : after hostOps0_2 X (Proc.devRef .tc main_cst_6) = constant (F := Ideal) S_ .f32 0x3F800000#32 := by
  after_results
theorem s2_v17 : after hostOps0_2 X (Proc.devRef .tc main_v17) = X (Proc.devRef .tc main_v17) := by not_written_by hostOps0_2
theorem s2_v16 : after hostOps0_2 X (Proc.devRef .tc main_v16) = X (Proc.devRef .tc main_v16) := by not_written_by hostOps0_2
theorem s2_arg0 : after hostOps0_2 X (Proc.devRef .tc main_arg0) = X (Proc.devRef .tc main_arg0) := by not_written_by hostOps0_2
theorem s2_arg1 : after hostOps0_2 X (Proc.devRef .tc main_arg1) = X (Proc.devRef .tc main_arg1) := by not_written_by hostOps0_2
theorem s2_arg2 : after hostOps0_2 X (Proc.devRef .tc main_arg2) = X (Proc.devRef .tc main_arg2) := by not_written_by hostOps0_2
theorem s2_arg3 : after hostOps0_2 X (Proc.devRef .tc main_arg3) = X (Proc.devRef .tc main_arg3) := by not_written_by hostOps0_2
theorem s2_arg4 : after hostOps0_2 X (Proc.devRef .tc main_arg4) = X (Proc.devRef .tc main_arg4) := by not_written_by hostOps0_2
theorem s2_arg5 : after hostOps0_2 X (Proc.devRef .tc main_arg5) = X (Proc.devRef .tc main_arg5) := by not_written_by hostOps0_2
theorem s2_arg6 : after hostOps0_2 X (Proc.devRef .tc main_arg6) = X (Proc.devRef .tc main_arg6) := by not_written_by hostOps0_2

/-- The fourth stretch clamps the in-degree below at one. -/
theorem s3_v18 : after hostOps0_3 X (Proc.devRef .tc main_v18)
    = (maximumf (broadcastInDim S100000 ![] bcast_S_S100000 (id (X (Proc.devRef .tc main_cst_6)) : FVec Ideal S_ .f32))
        (X (Proc.devRef .tc main_v16) : FVec Ideal S100000 .f32) : FVec Ideal S100000 .f32) := by
  after_results <;> rfl
theorem s3_v17 : after hostOps0_3 X (Proc.devRef .tc main_v17) = X (Proc.devRef .tc main_v17) := by not_written_by hostOps0_3
theorem s3_arg0 : after hostOps0_3 X (Proc.devRef .tc main_arg0) = X (Proc.devRef .tc main_arg0) := by not_written_by hostOps0_3
theorem s3_arg1 : after hostOps0_3 X (Proc.devRef .tc main_arg1) = X (Proc.devRef .tc main_arg1) := by not_written_by hostOps0_3
theorem s3_arg2 : after hostOps0_3 X (Proc.devRef .tc main_arg2) = X (Proc.devRef .tc main_arg2) := by not_written_by hostOps0_3
theorem s3_arg3 : after hostOps0_3 X (Proc.devRef .tc main_arg3) = X (Proc.devRef .tc main_arg3) := by not_written_by hostOps0_3
theorem s3_arg4 : after hostOps0_3 X (Proc.devRef .tc main_arg4) = X (Proc.devRef .tc main_arg4) := by not_written_by hostOps0_3
theorem s3_arg5 : after hostOps0_3 X (Proc.devRef .tc main_arg5) = X (Proc.devRef .tc main_arg5) := by not_written_by hostOps0_3
theorem s3_arg6 : after hostOps0_3 X (Proc.devRef .tc main_arg6) = X (Proc.devRef .tc main_arg6) := by not_written_by hostOps0_3

/-- The fifth stretch takes the reciprocal square roots and lays each out as a column. -/
theorem s4_v20 : after hostOps0_4 X (Proc.devRef .tc main_v20)
    = (shapeCast S100000x1 (Host.rsqrt (X (Proc.devRef .tc main_v17) : FVec Ideal S100000 .f32)) shapeCasts_S100000_S100000x1 : FVec Ideal S100000x1 .f32) := by
  after_results <;> rfl
theorem s4_v22 : after hostOps0_4 X (Proc.devRef .tc main_v22)
    = (shapeCast S100000x1 (Host.rsqrt (X (Proc.devRef .tc main_v18) : FVec Ideal S100000 .f32)) shapeCasts_S100000_S100000x1 : FVec Ideal S100000x1 .f32) := by
  after_results <;> rfl
theorem s4_arg0 : after hostOps0_4 X (Proc.devRef .tc main_arg0) = X (Proc.devRef .tc main_arg0) := by not_written_by hostOps0_4
theorem s4_arg1 : after hostOps0_4 X (Proc.devRef .tc main_arg1) = X (Proc.devRef .tc main_arg1) := by not_written_by hostOps0_4
theorem s4_arg2 : after hostOps0_4 X (Proc.devRef .tc main_arg2) = X (Proc.devRef .tc main_arg2) := by not_written_by hostOps0_4
theorem s4_arg3 : after hostOps0_4 X (Proc.devRef .tc main_arg3) = X (Proc.devRef .tc main_arg3) := by not_written_by hostOps0_4
theorem s4_arg4 : after hostOps0_4 X (Proc.devRef .tc main_arg4) = X (Proc.devRef .tc main_arg4) := by not_written_by hostOps0_4
theorem s4_arg5 : after hostOps0_4 X (Proc.devRef .tc main_arg5) = X (Proc.devRef .tc main_arg5) := by not_written_by hostOps0_4
theorem s4_arg6 : after hostOps0_4 X (Proc.devRef .tc main_arg6) = X (Proc.devRef .tc main_arg6) := by not_written_by hostOps0_4

set_option maxHeartbeats 2000000 in
/-- Between the first two regions: the message passing over the first region's result, and the bias as a row. -/
theorem h1_v38 : after hostOps1 X (Proc.devRef .tc main_v38)
    = aggOf (X (Proc.devRef .tc main_v23)) (X (Proc.devRef .tc main_arg1)) (X (Proc.devRef .tc main_arg2)) := by
  after_results <;> rfl
set_option maxHeartbeats 2000000 in
theorem h1_v39 : after hostOps1 X (Proc.devRef .tc main_v39)
    = shapeCast S1x128 (X (Proc.devRef .tc main_arg4)) shapeCasts_S128_S1x128 := by
  after_results <;> rfl
theorem h1_v22 : after hostOps1 X (Proc.devRef .tc main_v22) = X (Proc.devRef .tc main_v22) := by not_written_by hostOps1
theorem h1_arg5 : after hostOps1 X (Proc.devRef .tc main_arg5) = X (Proc.devRef .tc main_arg5) := by not_written_by hostOps1
theorem h1_arg6 : after hostOps1 X (Proc.devRef .tc main_arg6) = X (Proc.devRef .tc main_arg6) := by not_written_by hostOps1

/-- Between the last two regions: the batch statistics from the two column sums, and the scale and shift as rows. -/
theorem h2_v42 : after hostOps2 X (Proc.devRef .tc main_v42)
    = (Host.divf (X (Proc.devRef .tc main_v40_1) : FVec Ideal S1x128 .f32) (broadcastInDim S1x128 ![] bcast_S_S1x128 (constant (F := Ideal) S_ .f32 0x47C35000#32)) : FVec Ideal S1x128 .f32) := by
  after_results <;> rfl
theorem h2_v49 : after hostOps2 X (Proc.devRef .tc main_v49)
    = (Host.rsqrt (addf (subf (Host.divf (X (Proc.devRef .tc main_v40_2) : FVec Ideal S1x128 .f32) (broadcastInDim S1x128 ![] bcast_S_S1x128 (constant (F := Ideal) S_ .f32 0x47C35000#32)))
        (mulf (Host.divf (X (Proc.devRef .tc main_v40_1) : FVec Ideal S1x128 .f32) (broadcastInDim S1x128 ![] bcast_S_S1x128 (constant (F := Ideal) S_ .f32 0x47C35000#32)))
              (Host.divf (X (Proc.devRef .tc main_v40_1) : FVec Ideal S1x128 .f32) (broadcastInDim S1x128 ![] bcast_S_S1x128 (constant (F := Ideal) S_ .f32 0x47C35000#32)))))
      (broadcastInDim S1x128 ![] bcast_S_S1x128 (constant (F := Ideal) S_ .f32 0x3727C5AC#32))) : FVec Ideal S1x128 .f32) := by
  after_results <;> rfl
theorem h2_v50 : after hostOps2 X (Proc.devRef .tc main_v50)
    = shapeCast S1x128 (X (Proc.devRef .tc main_arg5)) shapeCasts_S128_S1x128 := by
  after_results <;> rfl
theorem h2_v51 : after hostOps2 X (Proc.devRef .tc main_v51)
    = shapeCast S1x128 (X (Proc.devRef .tc main_arg6)) shapeCasts_S128_S1x128 := by
  after_results <;> rfl
theorem h2_v40_0 : after hostOps2 X (Proc.devRef .tc main_v40_0) = X (Proc.devRef .tc main_v40_0) := by not_written_by hostOps2

end Stretches

end Cert.KernelIdeal.Val

end
-- ==== Proof.Entries.lean ====
/-
  The contents each region finds in its arrays, as functions of the launch contents of the arguments and of the arrays
  the region before it left: the host stretches' reads composed along the run's segment boundaries. An argument array
  reaches every boundary unchanged; the two degree normalisers are computed before the first region and reach the
  second untouched; the first region's result enters the message passing; the second region's three results enter
  the batch statistics.
-/
import proofs.«160708_j19052474925490_1_alg».proof.Proof.HostReads

noncomputable section

namespace Cert.KernelIdeal.Val

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg) (c : Dev nD)

/-! ## The arguments at the first region's entry -/

theorem W5_arg0 : W5 m ρ c (Proc.devRef .tc main_arg0) = m ((c : Thread nD τ).loc main_arg0) :=
  (s4_arg0 (W4 m ρ c)).trans ((s3_arg0 (W3 m ρ c)).trans ((s2_arg0 (W2 m ρ c)).trans ((s1_arg0 (W1 m ρ c)).trans ((s0_arg0 (W0 m ρ c)).trans rfl))))
theorem W5_arg1 : W5 m ρ c (Proc.devRef .tc main_arg1) = m ((c : Thread nD τ).loc main_arg1) :=
  (s4_arg1 (W4 m ρ c)).trans ((s3_arg1 (W3 m ρ c)).trans ((s2_arg1 (W2 m ρ c)).trans ((s1_arg1 (W1 m ρ c)).trans ((s0_arg1 (W0 m ρ c)).trans rfl))))
theorem W5_arg2 : W5 m ρ c (Proc.devRef .tc main_arg2) = m ((c : Thread nD τ).loc main_arg2) :=
  (s4_arg2 (W4 m ρ c)).trans ((s3_arg2 (W3 m ρ c)).trans ((s2_arg2 (W2 m ρ c)).trans ((s1_arg2 (W1 m ρ c)).trans ((s0_arg2 (W0 m ρ c)).trans rfl))))
theorem W5_arg3 : W5 m ρ c (Proc.devRef .tc main_arg3) = m ((c : Thread nD τ).loc main_arg3) :=
  (s4_arg3 (W4 m ρ c)).trans ((s3_arg3 (W3 m ρ c)).trans ((s2_arg3 (W2 m ρ c)).trans ((s1_arg3 (W1 m ρ c)).trans ((s0_arg3 (W0 m ρ c)).trans rfl))))
theorem W5_arg4 : W5 m ρ c (Proc.devRef .tc main_arg4) = m ((c : Thread nD τ).loc main_arg4) :=
  (s4_arg4 (W4 m ρ c)).trans ((s3_arg4 (W3 m ρ c)).trans ((s2_arg4 (W2 m ρ c)).trans ((s1_arg4 (W1 m ρ c)).trans ((s0_arg4 (W0 m ρ c)).trans rfl))))
theorem W5_arg5 : W5 m ρ c (Proc.devRef .tc main_arg5) = m ((c : Thread nD τ).loc main_arg5) :=
  (s4_arg5 (W4 m ρ c)).trans ((s3_arg5 (W3 m ρ c)).trans ((s2_arg5 (W2 m ρ c)).trans ((s1_arg5 (W1 m ρ c)).trans ((s0_arg5 (W0 m ρ c)).trans rfl))))
theorem W5_arg6 : W5 m ρ c (Proc.devRef .tc main_arg6) = m ((c : Thread nD τ).loc main_arg6) :=
  (s4_arg6 (W4 m ρ c)).trans ((s3_arg6 (W3 m ρ c)).trans ((s2_arg6 (W2 m ρ c)).trans ((s1_arg6 (W1 m ρ c)).trans ((s0_arg6 (W0 m ρ c)).trans rfl))))

/-! ## The two normalisers' columns at the first region's entry -/

theorem W5_v20 : W5 m ρ c (Proc.devRef .tc main_v20)
    = (shapeCast S100000x1 (normOf (m ((c : Thread nD τ).loc main_arg1))) shapeCasts_S100000_S100000x1 : (⟨S100000x1, .f32⟩ : BufTy).Contents (Elt Ideal)) := by
  have e4 := s4_v20 (W4 m ρ c)
  have e3 : W4 m ρ c (Proc.devRef .tc main_v17) = W3 m ρ c (Proc.devRef .tc main_v17) := s3_v17 (W3 m ρ c)
  have e2 : W3 m ρ c (Proc.devRef .tc main_v17) = W2 m ρ c (Proc.devRef .tc main_v17) := s2_v17 (W2 m ρ c)
  have e1 := s1_v17 (W1 m ρ c)
  have e0a : W1 m ρ c (Proc.devRef .tc main_cst_5) = constant (F := Ideal) S_ .f32 0x3F800000#32 := s0_cst5 (W0 m ρ c)
  have e0b : W1 m ρ c (Proc.devRef .tc main_v8)
      = Host.scatterAdd scatter_S100000_S1600000x1_S1600000_n_0_0_1
        (broadcastInDim S100000 ![] bcast_S_S100000 (constant (F := Ideal) S_ .f32 0x00000000#32)) (rowsOf (m ((c : Thread nD τ).loc main_arg1)))
        (broadcastInDim S1600000 ![] bcast_S_S1600000 (constant (F := Ideal) S_ .f32 0x3F800000#32)) := s0_v8 (W0 m ρ c)
  refine e4.trans ?_
  rw [e3, e2]
  refine (congrArg (fun v => shapeCast S100000x1 (Host.rsqrt v) shapeCasts_S100000_S100000x1) (e1.trans ?_))
  rw [e0a, e0b]

theorem W5_v22 : W5 m ρ c (Proc.devRef .tc main_v22)
    = (shapeCast S100000x1 (normOf (m ((c : Thread nD τ).loc main_arg2))) shapeCasts_S100000_S100000x1 : (⟨S100000x1, .f32⟩ : BufTy).Contents (Elt Ideal)) := by
  have e4 := s4_v22 (W4 m ρ c)
  have e3 := s3_v18 (W3 m ρ c)
  have e2a : W3 m ρ c (Proc.devRef .tc main_cst_6) = constant (F := Ideal) S_ .f32 0x3F800000#32 := s2_cst6 (W2 m ρ c)
  have e2b : W3 m ρ c (Proc.devRef .tc main_v16) = W2 m ρ c (Proc.devRef .tc main_v16) := s2_v16 (W2 m ρ c)
  have e1 : W2 m ρ c (Proc.devRef .tc main_v16) = W1 m ρ c (Proc.devRef .tc main_v16) := s1_v16 (W1 m ρ c)
  have e0 : W1 m ρ c (Proc.devRef .tc main_v16)
      = Host.scatterAdd scatter_S100000_S1600000x1_S1600000_n_0_0_1
        (broadcastInDim S100000 ![] bcast_S_S100000 (constant (F := Ideal) S_ .f32 0x00000000#32)) (rowsOf (m ((c : Thread nD τ).loc main_arg2)))
        (broadcastInDim S1600000 ![] bcast_S_S1600000 (constant (F := Ideal) S_ .f32 0x3F800000#32)) := s0_v16 (W0 m ρ c)
  refine e4.trans ?_
  refine (congrArg (fun v => shapeCast S100000x1 (Host.rsqrt v) shapeCasts_S100000_S100000x1) (e3.trans ?_))
  rw [e2a, e2b, e1, e0]

/-! ## At the second region's entry -/

theorem W6_arg1 : W6 m ρ c (Proc.devRef .tc main_arg1) = m ((c : Thread nD τ).loc main_arg1) :=
  (W6_of_ne m ρ c main_arg1 (by decide)).trans (W5_arg1 m ρ c)
theorem W6_arg2 : W6 m ρ c (Proc.devRef .tc main_arg2) = m ((c : Thread nD τ).loc main_arg2) :=
  (W6_of_ne m ρ c main_arg2 (by decide)).trans (W5_arg2 m ρ c)
theorem W6_arg4 : W6 m ρ c (Proc.devRef .tc main_arg4) = m ((c : Thread nD τ).loc main_arg4) :=
  (W6_of_ne m ρ c main_arg4 (by decide)).trans (W5_arg4 m ρ c)
theorem W6_arg5 : W6 m ρ c (Proc.devRef .tc main_arg5) = m ((c : Thread nD τ).loc main_arg5) :=
  (W6_of_ne m ρ c main_arg5 (by decide)).trans (W5_arg5 m ρ c)
theorem W6_arg6 : W6 m ρ c (Proc.devRef .tc main_arg6) = m ((c : Thread nD τ).loc main_arg6) :=
  (W6_of_ne m ρ c main_arg6 (by decide)).trans (W5_arg6 m ρ c)

/-- The aggregate the second region reads: the message passing over what the first region left. -/
theorem V7_v38 : (V7 m ρ c main_v38 : (⟨S100000x128, .f32⟩ : BufTy).Contents (Elt Ideal))
    = aggOf ((dat0 (V5 m ρ) c).arrAt 3 cfg0.N) (m ((c : Thread nD τ).loc main_arg1)) (m ((c : Thread nD τ).loc main_arg2)) := by
  have e := h1_v38 (W6 m ρ c)
  have e23 : W6 m ρ c (Proc.devRef .tc main_v23) = (dat0 (V5 m ρ) c).arrAt 3 cfg0.N := W6_arr m ρ c 3
  refine e.trans ?_
  rw [e23, W6_arg1 m ρ c, W6_arg2 m ρ c]

/-- The destination normaliser's column, as the second region reads it. -/
theorem V7_v22 : (V7 m ρ c main_v22 : (⟨S100000x1, .f32⟩ : BufTy).Contents (Elt Ideal))
    = shapeCast S100000x1 (normOf (m ((c : Thread nD τ).loc main_arg2))) shapeCasts_S100000_S100000x1 :=
  (h1_v22 (W6 m ρ c)).trans ((W6_of_ne m ρ c main_v22 (by decide)).trans (W5_v22 m ρ c))

/-- The bias as a row. -/
theorem V7_v39 : (V7 m ρ c main_v39 : (⟨S1x128, .f32⟩ : BufTy).Contents (Elt Ideal))
    = shapeCast S1x128 (m ((c : Thread nD τ).loc main_arg4)) shapeCasts_S128_S1x128 := by
  refine (h1_v39 (W6 m ρ c)).trans ?_
  rw [W6_arg4 m ρ c]

/-! ## At the third region's entry -/

theorem W8_arg5 : W8 m ρ c (Proc.devRef .tc main_arg5) = m ((c : Thread nD τ).loc main_arg5) :=
  (W8_of_ne m ρ c main_arg5 (by decide)).trans ((h1_arg5 (W6 m ρ c)).trans (W6_arg5 m ρ c))
theorem W8_arg6 : W8 m ρ c (Proc.devRef .tc main_arg6) = m ((c : Thread nD τ).loc main_arg6) :=
  (W8_of_ne m ρ c main_arg6 (by decide)).trans ((h1_arg6 (W6 m ρ c)).trans (W6_arg6 m ρ c))

/-- The activations, as the third region reads them: what the second region left. -/
theorem V9_v40_0 : (V9 m ρ c main_v40_0 : (⟨S100000x128, .f32⟩ : BufTy).Contents (Elt Ideal))
    = (dat1 (V7 m ρ) c).arrAt 3 cfg1.N :=
  (h2_v40_0 (W8 m ρ c)).trans (W8_arr m ρ c 3)

/-- The mean row: the column sums over the number of rows. -/
theorem V9_v42 : (V9 m ρ c main_v42 : (⟨S1x128, .f32⟩ : BufTy).Contents (Elt Ideal))
    = Host.divf ((dat1 (V7 m ρ) c).arrAt 4 cfg1.N : (⟨S1x128, .f32⟩ : BufTy).Contents (Elt Ideal))
        (broadcastInDim S1x128 ![] bcast_S_S1x128 (constant (F := Ideal) S_ .f32 0x47C35000#32)) := by
  have e4 : W8 m ρ c (Proc.devRef .tc main_v40_1) = (dat1 (V7 m ρ) c).arrAt 4 cfg1.N := W8_arr m ρ c 4
  refine (h2_v42 (W8 m ρ c)).trans ?_
  rw [e4]

/-- The reciprocal deviation row: the mean of squares less the squared mean, plus the stabiliser, under the
    reciprocal square root. -/
theorem V9_v49 : (V9 m ρ c main_v49 : (⟨S1x128, .f32⟩ : BufTy).Contents (Elt Ideal))
    = Host.rsqrt (addf (subf (Host.divf ((dat1 (V7 m ρ) c).arrAt 5 cfg1.N : (⟨S1x128, .f32⟩ : BufTy).Contents (Elt Ideal)) (broadcastInDim S1x128 ![] bcast_S_S1x128 (constant (F := Ideal) S_ .f32 0x47C35000#32)))
        (mulf (Host.divf ((dat1 (V7 m ρ) c).arrAt 4 cfg1.N : (⟨S1x128, .f32⟩ : BufTy).Contents (Elt Ideal)) (broadcastInDim S1x128 ![] bcast_S_S1x128 (constant (F := Ideal) S_ .f32 0x47C35000#32)))
              (Host.divf ((dat1 (V7 m ρ) c).arrAt 4 cfg1.N : (⟨S1x128, .f32⟩ : BufTy).Contents (Elt Ideal)) (broadcastInDim S1x128 ![] bcast_S_S1x128 (constant (F := Ideal) S_ .f32 0x47C35000#32)))))
      (broadcastInDim S1x128 ![] bcast_S_S1x128 (constant (F := Ideal) S_ .f32 0x3727C5AC#32))) := by
  have e4 : W8 m ρ c (Proc.devRef .tc main_v40_1) = (dat1 (V7 m ρ) c).arrAt 4 cfg1.N := W8_arr m ρ c 4
  have e5 : W8 m ρ c (Proc.devRef .tc main_v40_2) = (dat1 (V7 m ρ) c).arrAt 5 cfg1.N := W8_arr m ρ c 5
  refine (h2_v49 (W8 m ρ c)).trans ?_
  rw [e4, e5]

/-- The scale and the shift as rows. -/
theorem V9_v50 : (V9 m ρ c main_v50 : (⟨S1x128, .f32⟩ : BufTy).Contents (Elt Ideal))
    = shapeCast S1x128 (m ((c : Thread nD τ).loc main_arg5)) shapeCasts_S128_S1x128 := by
  refine (h2_v50 (W8 m ρ c)).trans ?_
  rw [W8_arg5 m ρ c]
theorem V9_v51 : (V9 m ρ c main_v51 : (⟨S1x128, .f32⟩ : BufTy).Contents (Elt Ideal))
    = shapeCast S1x128 (m ((c : Thread nD τ).loc main_arg6)) shapeCasts_S128_S1x128 := by
  refine (h2_v51 (W8 m ρ c)).trans ?_
  rw [W8_arg6 m ρ c]

end Cert.KernelIdeal.Val

end
-- ==== Proof.Spec.lean ====
/-
  The activation that the second kernel stores and accumulates, entry by entry over the extended reals:
  relu(agg · nd + b) at row r, column q — the aggregated messages scaled by the destination's degree
  normaliser, plus the bias, clamped below at zero.
-/
import proofs.«160708_j19052474925490_1_alg».proof.KernelIdeal
import Idealize.ShloMosaic.Lib.ValueIdx

noncomputable section

namespace Cert.KernelIdeal.Val

open Cert.KernelIdeal Idealize.ShloMosaic Idealize.ShloMosaic.ValueIdx

/-- relu(agg · nd + b) at row `r`, column `q`. -/
def h2Of (agg : S100000x128.Idx → EReal) (nd : S100000.Idx → EReal) (b : S128.Idx → EReal) (r : Fin 100000) (q : Fin 128) : EReal :=
  max (agg (ix2 r q) * nd (ix1 r) + b (ix1 q)) 0

end Cert.KernelIdeal.Val

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«160708_j19052474925490_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.Region0.lean ====
/-
  The first kernel of the block, read as one array: h = (x · W), each row scaled by the source normaliser of
  that row.  The 100000 rows are cut into twenty blocks of 5000; a grid point multiplies its block of rows by the
  whole 256 × 128 weight matrix and scales row p by the p-th entry of its block of the normaliser column.  So
  entry (r, q) of the result depends on row r of x, column q of W and the normaliser of row r only, and the
  twenty blocks written back tile the result.
-/
import proofs.«160708_j19052474925490_1_alg».proof.Proof.Gen.KernelIdeal.Frame
import proofs.«160708_j19052474925490_1_alg».proof.Proof.Spec
import proofs.«160708_j19052474925490_1_alg».proof.Proof.LibKeepdims
import proofs.«160708_j19052474925490_1_alg».proof.Proof.LibPlainDotFormats
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The two offsets of a rectangle that starts at the origin of a two-axis block. -/
theorem r0_origin : (![0, 0] : Fin 2 → Nat) = fun _ => 0 := funext fun a => by fin_cases a <;> rfl

/-- The product's dimension numbers are those of a plain matrix product: the second axis of the [5000, 256] rows
    against the first axis of the [256, 128] weights, no batch axis. -/
theorem r0_plain : Cert.LibPlainDot.Plain dot_S5000x256_S256x128_S5000x128_1_0_0_1_n_n :=
  ⟨rfl, rfl, rfl, rfl, rfl, rfl⟩

/-- What one grid point stores, entry by entry: row p of the x block times column q of the weights, the sum over
    the 256 features, scaled by row p's entry of the normaliser column.  The changes of float format are the
    identity on extended reals, the accumulator is the zero splat, the normaliser's cast is to its own shape and
    its broadcast repeats the one entry of row p along the 128 columns. -/
theorem r0_payload_apply (x0 : Vec Ideal S5000x256 .f32) (x1 : Vec Ideal S256x128 .f32) (x2 : Vec Ideal S5000x1 .f32)
    (p : Fin 5000) (q : Fin 128) :
    k0_pay1 (F := Ideal) x0 x1 x2 (ix2 p q)
      = (∑ k : Fin 256, x0 (ix2 p k) * x1 (ix2 k q)) * x2 (ix2 p (0 : Fin 1)) := by
  unfold k0_pay1
  refine (mulf_apply _ _ _).trans ?_
  refine congrArg₂ (· * ·) ?_ ?_
  · exact r0_plain.matmul_zero_apply_formats none _ _ p q
  · refine (Cert.LibKeepdims.broadcastTo_a1_ab_apply _ _ p q).trans ?_
    rw [shapeCast_self]

/-- The block indices of the four windows at every grid point, decided once over the twenty points: the x rows, the
    normaliser column and the result move one block of 5000 rows per point and stay at column block 0; the
    weights stay at block (0, 0). -/
theorem r0_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (r, q) of the result: row r of x against column q of the weights, summed over the 256 features, times
    the normaliser of row r. -/
def r0_entry (x : S100000x256.Idx → EReal) (w : S256x128.Idx → EReal) (n : S100000.Idx → EReal)
    (r : Fin 100000) (q : Fin 128) : EReal :=
  (∑ k : Fin 256, x (ix2 r k) * w (ix2 k q)) * n (ix1 r)

/-- The whole result array as one function of the three argument arrays. -/
def r0_result (x : S100000x256.Idx → EReal) (w : S256x128.Idx → EReal) (n : S100000.Idx → EReal) :
    S100000x128.Idx → EReal :=
  fun i => r0_entry x w n (i 0) (i 1)

/-- The x block at point t holds rows 5000 t … 5000 t + 4999 of x, all 256 columns. -/
theorem r0_x_block (x : S100000x256.Idx → EReal) (hx : (V c main_arg0 : S100000x256.Idx → EReal) = x)
    (t : Fin cfg0.N) (p : Fin 5000) (k : Fin 256) (r : Fin 100000) (hr : r.val = 5000 * t.val + p.val) :
    (iblk0 V c 0 t : Vec Ideal S5000x256 .f32) (ix2 p k) = x (ix2 r k) := by
  obtain ⟨e0, e1, -⟩ := r0_index_facts t
  unfold iblk0
  rw [View.read_apply]
  show (V c main_arg0 : S100000x256.Idx → EReal) _ = _
  rw [hx]
  congr 1
  funext a
  apply Fin.ext
  match a with
  | ⟨0, _⟩ => show win0_0.index t (0 : Fin 2) * 5000 + 1 * p.val = r.val; omega
  | ⟨1, _⟩ => show win0_0.index t (1 : Fin 2) * 256 + 1 * k.val = k.val; omega

/-- The weights' block at every point is the whole 256 × 128 array. -/
theorem r0_w_block (w : S256x128.Idx → EReal) (hw : (V c main_arg3 : S256x128.Idx → EReal) = w)
    (t : Fin cfg0.N) (k : Fin 256) (q : Fin 128) :
    (iblk0 V c 1 t : Vec Ideal S256x128 .f32) (ix2 k q) = w (ix2 k q) := by
  obtain ⟨-, -, e0, e1, -⟩ := r0_index_facts t
  unfold iblk0
  rw [View.read_apply]
  show (V c main_arg3 : S256x128.Idx → EReal) _ = _
  rw [hw]
  congr 1
  funext a
  apply Fin.ext
  match a with
  | ⟨0, _⟩ => show win0_1.index t (0 : Fin 2) * 256 + 1 * k.val = k.val; omega
  | ⟨1, _⟩ => show win0_1.index t (1 : Fin 2) * 128 + 1 * q.val = q.val; omega

/-- The normaliser's block at point t holds, in its one column, the normalisers of rows 5000 t … 5000 t + 4999:
    the column array is the vector of normalisers viewed as [100000, 1]. -/
theorem r0_n_block (n : S100000.Idx → EReal)
    (hn : (V c main_v20 : S100000x1.Idx → EReal) = shapeCast S100000x1 n shapeCasts_S100000_S100000x1)
    (t : Fin cfg0.N) (p : Fin 5000) (r : Fin 100000) (hr : r.val = 5000 * t.val + p.val) :
    (iblk0 V c 2 t : Vec Ideal S5000x1 .f32) (ix2 p (0 : Fin 1)) = n (ix1 r) := by
  obtain ⟨-, -, -, -, e0, e1, -⟩ := r0_index_facts t
  unfold iblk0
  rw [View.read_apply]
  show (V c main_v20 : S100000x1.Idx → EReal) _ = _
  rw [hn]
  refine Eq.trans ?_ (Cert.LibKeepdims.shapeCast_a_a1_apply n shapeCasts_S100000_S100000x1 r (0 : Fin 1))
  congr 1
  funext a
  apply Fin.ext
  match a with
  | ⟨0, _⟩ => show win0_2.index t (0 : Fin 2) * 5000 + 1 * p.val = r.val; omega
  | ⟨1, _⟩ => show win0_2.index t (1 : Fin 2) * 1 + 1 * 0 = 0; omega

/-- What point t writes back is block t of the whole result: entry (p, q) of the stored block is the payload at
    (p, q) of the three blocks, and each block is read where the result's rectangle says — x and the normaliser
    at row 5000 t + p, the weights whole. -/
theorem r0_flushed_eq (x : S100000x256.Idx → EReal) (w : S256x128.Idx → EReal) (n : S100000.Idx → EReal)
    (hx : (V c main_arg0 : S100000x256.Idx → EReal) = x)
    (hw : (V c main_arg3 : S256x128.Idx → EReal) = w)
    (hn : (V c main_v20 : S100000x1.Idx → EReal) = shapeCast S100000x1 n shapeCasts_S100000_S100000x1)
    (t : Fin cfg0.N) :
    (dat0 (F := Ideal) V c).flushed 3 t = ((cfg0.win 3).blk t).view.read (Elt Ideal) (r0_result x w n) := by
  show (cfg0.win 3).cut (grid0.coords t) ((dat0 V c).after 3 t) = _
  rw [after0_3]
  unfold out0_3
  rw [View.canon_unit_zero r0_origin]
  simp only [View.ld_unit_zero (S := S5000x256) r0_origin, View.ld_unit_zero (S := S256x128) r0_origin,
    View.ld_unit_zero (S := S5000x1) r0_origin]
  funext j
  have hp : (j 0).val < 5000 := (j 0).isLt
  have hq : (j 1).val < 128 := (j 1).isLt
  have hN : cfg0.N = 20 := N_0
  have ht : t.val < cfg0.N := t.isLt
  have hr : 5000 * t.val + (j 0).val < 100000 := by omega
  obtain ⟨-, -, -, -, -, -, e0, e1⟩ := r0_index_facts t
  have hemb : ((cfg0.win 3).blk t).view.emb j
      = ix2 (⟨5000 * t.val + (j 0).val, hr⟩ : Fin 100000) (⟨(j 1).val, hq⟩ : Fin 128) := by
    funext a
    apply Fin.ext
    match a with
    | ⟨0, _⟩ => show win0_3.index t (0 : Fin 2) * 5000 + 1 * (j 0).val = 5000 * t.val + (j 0).val; omega
    | ⟨1, _⟩ => show win0_3.index t (1 : Fin 2) * 128 + 1 * (j 1).val = (j 1).val; omega
  show k0_pay1 (F := Ideal) (iblk0 V c 0 t) (iblk0 V c 1 t) (iblk0 V c 2 t) (win0_3.xinj (grid0.coords t) j)
    = r0_result x w n (((cfg0.win 3).blk t).view.emb j)
  have hinj : win0_3.xinj (grid0.coords t) j = ix2 (⟨(j 0).val, hp⟩ : Fin 5000) (⟨(j 1).val, hq⟩ : Fin 128) := by
    funext a
    match a with
    | ⟨0, _⟩ => rfl
    | ⟨1, _⟩ => rfl
  refine Eq.trans (congrArg (k0_pay1 (F := Ideal) (iblk0 V c 0 t) (iblk0 V c 1 t) (iblk0 V c 2 t)) hinj) ?_
  refine Eq.trans ?_ (congrArg (r0_result x w n) hemb.symm)
  refine (r0_payload_apply (iblk0 V c 0 t) (iblk0 V c 1 t) (iblk0 V c 2 t) _ _).trans ?_
  show _ = (∑ k : Fin 256, x (ix2 (⟨5000 * t.val + (j 0).val, hr⟩ : Fin 100000) k) * w (ix2 k (⟨(j 1).val, hq⟩ : Fin 128)))
      * n (ix1 (⟨5000 * t.val + (j 0).val, hr⟩ : Fin 100000))
  refine congrArg₂ (· * ·) (Finset.sum_congr rfl fun k _ => congrArg₂ (· * ·) ?_ ?_) ?_
  · exact r0_x_block V c x hx t _ k _ rfl
  · exact r0_w_block V c w hw t k _
  · exact r0_n_block V c n hn t _ _ rfl

/-- A row and column of the result lie in point t's block exactly when, on each axis, the coordinate is within
    the block's range. -/
theorem r0_mem_block (t : Fin cfg0.N) (i : S100000x128.Idx) :
    i ∈ ((cfg0.win 3).blk t).view.set
      ↔ ∀ a : Fin 2, win0_3.index t a * S5000x128.size a ≤ (i a).val
          ∧ (i a).val < win0_3.index t a * S5000x128.size a + S5000x128.size a := by
  show i ∈ ((View.whole main_v23).slice (win0_3.rect t)).set ↔ _
  rw [View.set_slice_whole, Rect.mem_set_unit]
  exact Iff.rfl

/-- Every entry of the result is written back by some point: row r belongs to point r / 5000, and every point
    writes its block back. -/
theorem r0_cover (i : S100000x128.Idx) :
    ∃ t : Fin cfg0.N, (cfg0.win 3).flush t = true ∧ i ∈ ((cfg0.win 3).blk t).view.set := by
  have hN : cfg0.N = 20 := N_0
  have h0 : (i 0).val < 100000 := (i 0).isLt
  have h1 : (i 1).val < 128 := (i 1).isLt
  have hlt : (i 0).val / 5000 < cfg0.N := by omega
  obtain ⟨t, htv⟩ : ∃ t : Fin cfg0.N, t.val = (i 0).val / 5000 := ⟨⟨(i 0).val / 5000, hlt⟩, rfl⟩
  obtain ⟨-, -, -, -, -, -, e0, e1⟩ := r0_index_facts t
  refine ⟨t, flush0_3 t, ?_⟩
  rw [r0_mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- After the twenty points the result array holds, at row r and column q, row r of x against column q of the
    weights summed over the 256 features, times the normaliser of row r. -/
theorem region0_arr (x : S100000x256.Idx → EReal) (w : S256x128.Idx → EReal) (n : S100000.Idx → EReal)
    (hx : (V c main_arg0 : S100000x256.Idx → EReal) = x)
    (hw : (V c main_arg3 : S256x128.Idx → EReal) = w)
    (hn : (V c main_v20 : S100000x1.Idx → EReal) = shapeCast S100000x1 n shapeCasts_S100000_S100000x1)
    (r : Fin 100000) (q : Fin 128) :
    ((dat0 (F := Ideal) V c).arrAt 3 cfg0.N : Buf (Elt Ideal) ((c : Thread nD τ).loc main_v23)) (ix2 r q)
      = (∑ k : Fin 256, x (ix2 r k) * w (ix2 k q)) * n (ix1 r) := by
  have h := (dat0 (F := Ideal) V c).arrAt_eq_of_cover 3 (r0_result x w n)
    (fun t _ => r0_flushed_eq V c x w n hx hw hn t) r0_cover
  exact congrFun h (ix2 r q)

end Cert.KernelIdeal.Val

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibColumnSum.lean ====
/-
  The sum of a two-axis array along its FIRST axis, read at an entry: over the extended reals, started from the zero
  word, the sum of an `[a, b]` array over its rows is at column `j` the sum over the rows `k` of the entries
  `(k, j)`.  It holds for any extents; with `b = 1` it is the total of a one-column array.
-/
import Idealize.ShloMosaic.Lib.ValueIdx
import Idealize.ShloMosaic.PureOps.Ideal.Laws

noncomputable section

open scoped BigOperators

namespace Cert.LibColumnSum

open Idealize.ShloMosaic Idealize.ShloMosaic.ValueIdx

/-- Over the extended reals, the sum of an `[a, b]` array along its first axis, started from the zero word, is at
    column `j` the sum over the rows `k` of the entries `(k, j)`. -/
theorem multiReduction_add_cols_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src ?_
  funext ax
  apply Fin.ext
  match ax with
  | ⟨0, _⟩ => rfl
  | ⟨1, _⟩ => rfl

end Cert.LibColumnSum

end
-- ==== Proof.Region1Pieces.lean ====
import proofs.«160708_j19052474925490_1_alg».proof.Proof.Gen.KernelIdeal.Frame
import proofs.«160708_j19052474925490_1_alg».proof.Proof.Spec
import proofs.«160708_j19052474925490_1_alg».proof.Proof.LibKeepdims
import proofs.«160708_j19052474925490_1_alg».proof.Proof.LibRowLayout
import proofs.«160708_j19052474925490_1_alg».proof.Proof.LibColumnSum
import Idealize.ShloMosaic.Lib.ValueIdx
import Idealize.ShloMosaic.Lib.Pipeline.Value
import Idealize.ShloMosaic.Lib.Tactic
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-! # The second kernel's body, read as values

What each of the two control cases of the body leaves in its three output buffers, as a term of the blocks it loaded
(the activation block, and the two running column sums), and those terms read at an entry over the extended reals. -/

section Pieces

variable {F : FTy → Type} [FloatOps F]

theorem r1_hz : (![0, 0] : Fin 2 → Nat) = fun _ => 0 := funext fun a => by fin_cases a <;> rfl

/-- At the first point the activation buffer ends holding relu(agg * nd + b) of the loaded blocks. -/
theorem r1_out_A_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : cond1_0 i)
    (x0 : Vec F S5000x128 .f32) (x1 : Vec F S5000x1 .f32) (x2 : Vec F S1x128 .f32) :
    out1_A_3 c i arg1 harg1 arg2 harg2 arg3 harg3 arg4 harg4 arg5 harg5 arg6 harg6 hc0 x0 x1 x2 = k1_pay3 x0 x1 x2 := by
  unfold out1_A_3
  rw [View.read_writes_eq_canon _ _ _ (cover1_A_3 c i arg1 harg1 arg2 harg2 arg3 harg3 arg4 harg4 arg5 harg5 arg6 harg6 hc0 x0 x1 x2)]
  unfold kernelRun1_A
  dsimp only
  sl_unfold_words
  rw [View.canon_unit_zero (S := S5000x128) r1_hz]
  simp only [View.readAt_eq_ld, harg1.read_unread, harg2.read_unread, harg3.read_unread, View.ld_unit_zero (S := S5000x128) r1_hz, View.ld_unit_zero (S := S5000x1) r1_hz, View.ld_unit_zero (S := S1x128) r1_hz]

/-- At the first point the column-sum buffer is zeroed, read back, and ends holding the zero row plus the block's column sums. -/
theorem r1_out_A_4 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : cond1_0 i)
    (x0 : Vec F S5000x128 .f32) (x1 : Vec F S5000x1 .f32) (x2 : Vec F S1x128 .f32) :
    out1_A_4 c i arg1 harg1 arg2 harg2 arg3 harg3 arg4 harg4 arg5 harg5 arg6 harg6 hc0 x0 x1 x2 = k1_pay4 x0 x1 x2 (k1_pay1 (F := F)) := by
  unfold out1_A_4
  rw [View.read_writes_eq_canon _ _ _ (cover1_A_4 c i arg1 harg1 arg2 harg2 arg3 harg3 arg4 harg4 arg5 harg5 arg6 harg6 hc0 x0 x1 x2)]
  unfold kernelRun1_A
  dsimp only
  sl_unfold_words
  rw [View.canon_cons_unit_zero (S := S1x128) r1_hz, View.readCov_unit_zero (S := S1x128) _ r1_hz]
  simp only [View.readAt_eq_ld, harg1.read_unread, harg2.read_unread, harg3.read_unread, View.ld_unit_zero (S := S5000x128) r1_hz, View.ld_unit_zero (S := S5000x1) r1_hz, View.ld_unit_zero (S := S1x128) r1_hz]

/-- At the first point the column-sum-of-squares buffer is zeroed, read back, and ends holding the zero row plus the
    block's column sums of squares. -/
theorem r1_out_A_5 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : cond1_0 i)
    (x0 : Vec F S5000x128 .f32) (x1 : Vec F S5000x1 .f32) (x2 : Vec F S1x128 .f32) :
    out1_A_5 c i arg1 harg1 arg2 harg2 arg3 harg3 arg4 harg4 arg5 harg5 arg6 harg6 hc0 x0 x1 x2 = k1_pay5 x0 x1 x2 (k1_pay2 (F := F)) := by
  unfold out1_A_5
  rw [View.read_writes_eq_canon _ _ _ (cover1_A_5 c i arg1 harg1 arg2 harg2 arg3 harg3 arg4 harg4 arg5 harg5 arg6 harg6 hc0 x0 x1 x2)]
  unfold kernelRun1_A
  dsimp only
  sl_unfold_words
  rw [View.canon_cons_unit_zero (S := S1x128) r1_hz, View.readCov_unit_zero (S := S1x128) _ r1_hz]
  simp only [View.readAt_eq_ld, harg1.read_unread, harg2.read_unread, harg3.read_unread, View.ld_unit_zero (S := S5000x128) r1_hz, View.ld_unit_zero (S := S5000x1) r1_hz, View.ld_unit_zero (S := S1x128) r1_hz]

/-- At a later point the activation buffer ends holding relu(agg * nd + b) of the loaded blocks. -/
theorem r1_out_B_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i)
    (x0 : Vec F S5000x128 .f32) (x1 : Vec F S5000x1 .f32) (x2 : Vec F S1x128 .f32) (xo4 : Vec F S1x128 .f32) (xo5 : Vec F S1x128 .f32) :
    out1_B_3 c i arg1 harg1 arg2 harg2 arg3 harg3 arg4 harg4 arg5 harg5 arg6 harg6 hc0 x0 x1 x2 xo4 xo5 = k1_pay3 x0 x1 x2 := by
  unfold out1_B_3
  rw [View.read_writes_eq_canon _ _ _ (cover1_B_3 c i arg1 harg1 arg2 harg2 arg3 harg3 arg4 harg4 arg5 harg5 arg6 harg6 hc0 x0 x1 x2 xo4 xo5)]
  unfold kernelRun1_B
  dsimp only
  try sl_unfold_words
  rw [View.canon_unit_zero (S := S5000x128) r1_hz]
  simp only [View.readAt_eq_ld, harg1.read_unread, harg2.read_unread, harg3.read_unread, View.ld_unit_zero (S := S5000x128) r1_hz, View.ld_unit_zero (S := S5000x1) r1_hz, View.ld_unit_zero (S := S1x128) r1_hz]

/-- At a later point the column-sum buffer ends holding what it held plus the block's column sums. -/
theorem r1_out_B_4 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i)
    (x0 : Vec F S5000x128 .f32) (x1 : Vec F S5000x1 .f32) (x2 : Vec F S1x128 .f32) (xo4 : Vec F S1x128 .f32) (xo5 : Vec F S1x128 .f32) :
    out1_B_4 c i arg1 harg1 arg2 harg2 arg3 harg3 arg4 harg4 arg5 harg5 arg6 harg6 hc0 x0 x1 x2 xo4 xo5 = k1_pay4 x0 x1 x2 xo4 := by
  unfold out1_B_4
  rw [View.read_writes_eq_canon _ _ _ (cover1_B_4 c i arg1 harg1 arg2 harg2 arg3 harg3 arg4 harg4 arg5 harg5 arg6 harg6 hc0 x0 x1 x2 xo4 xo5)]
  unfold kernelRun1_B
  dsimp only
  try sl_unfold_words
  rw [View.canon_unit_zero (S := S1x128) r1_hz]
  simp only [View.readAt_eq_ld, harg1.read_unread, harg2.read_unread, harg3.read_unread, harg5.read_unread, View.ld_unit_zero (S := S5000x128) r1_hz, View.ld_unit_zero (S := S5000x1) r1_hz, View.ld_unit_zero (S := S1x128) r1_hz]

/-- At a later point the column-sum-of-squares buffer ends holding what it held plus the block's column sums of squares. -/
theorem r1_out_B_5 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i)
    (x0 : Vec F S5000x128 .f32) (x1 : Vec F S5000x1 .f32) (x2 : Vec F S1x128 .f32) (xo4 : Vec F S1x128 .f32) (xo5 : Vec F S1x128 .f32) :
    out1_B_5 c i arg1 harg1 arg2 harg2 arg3 harg3 arg4 harg4 arg5 harg5 arg6 harg6 hc0 x0 x1 x2 xo4 xo5 = k1_pay5 x0 x1 x2 xo5 := by
  unfold out1_B_5
  rw [View.read_writes_eq_canon _ _ _ (cover1_B_5 c i arg1 harg1 arg2 harg2 arg3 harg3 arg4 harg4 arg5 harg5 arg6 harg6 hc0 x0 x1 x2 xo4 xo5)]
  unfold kernelRun1_B
  dsimp only
  try sl_unfold_words
  rw [View.canon_unit_zero (S := S1x128) r1_hz]
  simp only [View.readAt_eq_ld, harg1.read_unread, harg2.read_unread, harg3.read_unread, harg6.read_unread, View.ld_unit_zero (S := S5000x128) r1_hz, View.ld_unit_zero (S := S5000x1) r1_hz, View.ld_unit_zero (S := S1x128) r1_hz]

end Pieces

/-! ## The stored terms at an entry, over the extended reals -/

/-- The activation block at row p, column q: relu of the aggregate times the row's normaliser plus the column's bias. -/
theorem r1_pay3_apply (x0 : Vec Ideal S5000x128 .f32) (x1 : Vec Ideal S5000x1 .f32) (x2 : Vec Ideal S1x128 .f32)
    (p : Fin 5000) (q : Fin 128) :
    k1_pay3 x0 x1 x2 (ix2 p q) = max (x0 (ix2 p q) * x1 (ix2 p (0 : Fin 1)) + x2 (ix2 (0 : Fin 1) q)) 0 := by
  unfold k1_pay3
  show max (shapeCast S5000x128 x0 shapeCasts_S5000x128_S5000x128 (ix2 p q)
      * broadcastTo S5000x128 (shapeCast S5000x1 x1 shapeCasts_S5000x1_S5000x1) broadcasts_S5000x1_S5000x128 (ix2 p q)
      + broadcastTo S5000x128 (shapeCast S1x128 x2 shapeCasts_S1x128_S1x128) broadcasts_S1x128_S5000x128 (ix2 p q))
      (Ideal.ofBits .f32 0x00000000#32) = _
  rw [shapeCast_self, shapeCast_self, shapeCast_self, Ideal.ofBits_zero_f32]
  refine congrArg₂ max (congrArg₂ (· + ·) (congrArg₂ (· * ·) rfl ?_) ?_) rfl
  · exact Cert.LibKeepdims.broadcastTo_a1_ab_apply x1 broadcasts_S5000x1_S5000x128 p q
  · exact Cert.LibRowLayout.broadcastTo_1b_ab_apply x2 broadcasts_S1x128_S5000x128 p q

/-- The zero row the first point stores into the column-sum buffer is zero at every column. -/
theorem r1_pay1_apply (q : Fin 128) : k1_pay1 (F := Ideal) (ix2 (0 : Fin 1) q) = 0 := by
  unfold k1_pay1
  exact Ideal.ofBits_zero_f32

/-- The zero row the first point stores into the column-sum-of-squares buffer is zero at every column. -/
theorem r1_pay2_apply (q : Fin 128) : k1_pay2 (F := Ideal) (ix2 (0 : Fin 1) q) = 0 := by
  unfold k1_pay2
  exact Ideal.ofBits_zero_f32

/-- The new running column sum at column q: the old one plus the sum over the block's 5000 rows of the activation. -/
theorem r1_pay4_apply (x0 : Vec Ideal S5000x128 .f32) (x1 : Vec Ideal S5000x1 .f32) (x2 : Vec Ideal S1x128 .f32)
    (acc : Vec Ideal S1x128 .f32) (q : Fin 128) :
    k1_pay4 x0 x1 x2 acc (ix2 (0 : Fin 1) q) = acc (ix2 (0 : Fin 1) q) + ∑ p : Fin 5000, k1_pay3 x0 x1 x2 (ix2 p q) := by
  unfold k1_pay4
  show shapeCast S1x128 acc shapeCasts_S1x128_S1x128 (ix2 (0 : Fin 1) q)
      + shapeCast S1x128 (multiReduction .add [0] S128 (k1_pay3 x0 x1 x2) 0x00000000#32 reduces_S5000x128_S128 (.inl rfl) rfl)
          shapeCasts_S128_S1x128 (ix2 (0 : Fin 1) q) = _
  rw [shapeCast_self]
  refine congrArg (acc (ix2 (0 : Fin 1) q) + ·) ?_
  refine (Cert.LibRowLayout.shapeCast_b_1b_apply _ shapeCasts_S128_S1x128 (0 : Fin 1) q).trans ?_
  exact Cert.LibColumnSum.multiReduction_add_cols_apply (k1_pay3 x0 x1 x2) reduces_S5000x128_S128 (.inl rfl) rfl q

/-- The new running column sum of squares at column q: the old one plus the sum over the block's rows of the squared activation. -/
theorem r1_pay5_apply (x0 : Vec Ideal S5000x128 .f32) (x1 : Vec Ideal S5000x1 .f32) (x2 : Vec Ideal S1x128 .f32)
    (acc : Vec Ideal S1x128 .f32) (q : Fin 128) :
    k1_pay5 x0 x1 x2 acc (ix2 (0 : Fin 1) q)
      = acc (ix2 (0 : Fin 1) q) + ∑ p : Fin 5000, k1_pay3 x0 x1 x2 (ix2 p q) * k1_pay3 x0 x1 x2 (ix2 p q) := by
  unfold k1_pay5
  show shapeCast S1x128 acc shapeCasts_S1x128_S1x128 (ix2 (0 : Fin 1) q)
      + shapeCast S1x128 (multiReduction .add [0] S128 (mulf (k1_pay3 x0 x1 x2) (k1_pay3 x0 x1 x2)) 0x00000000#32 reduces_S5000x128_S128 (.inl rfl) rfl)
          shapeCasts_S128_S1x128 (ix2 (0 : Fin 1) q) = _
  rw [shapeCast_self]
  refine congrArg (acc (ix2 (0 : Fin 1) q) + ·) ?_
  refine (Cert.LibRowLayout.shapeCast_b_1b_apply _ shapeCasts_S128_S1x128 (0 : Fin 1) q).trans ?_
  exact Cert.LibColumnSum.multiReduction_add_cols_apply (mulf (k1_pay3 x0 x1 x2) (k1_pay3 x0 x1 x2)) reduces_S5000x128_S128 (.inl rfl) rfl q

end Cert.KernelIdeal.Val

end
-- ==== Proof.LibTileSum.lean ====
/-
  A sum over J consecutive tiles of R entries each is the sum over all J * R entries.

  For `f : ℕ → M` into any additive commutative monoid (the extended reals among them), any tile length `R` and any
  number of tiles `J`:

    `tile_sum` :  Σ_{j < J} Σ_{r : Fin R} f (j * R + r) = Σ_{s : Fin (J * R)} f s.

  This is pure reindexing (the position `s` is `j * R + r` with `j = s / R`, `r = s % R`); no property of the
  summands is used.  `tile_sum_range` is the same with both sides as sums over ranges of naturals, and
  `tile_sum_fin` has the outer sum over `Fin J`.
-/
import Mathlib.Algebra.BigOperators.Fin
import Mathlib.Algebra.BigOperators.Intervals

open scoped BigOperators

namespace Cert.LibTileSum

variable {M : Type*} [AddCommMonoid M]

/-- Both sides over ranges of naturals: Σ_{j < J} Σ_{r < R} f (j * R + r) = Σ_{s < J * R} f s. -/
theorem tile_sum_range (R : ℕ) (f : ℕ → M) (J : ℕ) :
    ∑ j ∈ Finset.range J, ∑ r ∈ Finset.range R, f (j * R + r) = ∑ s ∈ Finset.range (J * R), f s := by
  induction J with
  | zero => simp
  | succ J ih =>
    rw [Finset.sum_range_succ, ih, Nat.succ_mul, Finset.sum_range_add]

/-- A sum over J consecutive tiles of R entries each is the sum over all J * R entries. -/
theorem tile_sum (R : ℕ) (f : ℕ → M) (J : ℕ) :
    (Finset.range J).sum (fun j => ∑ r : Fin R, f (j * R + r.val)) = ∑ s : Fin (J * R), f s.val := by
  rw [Fin.sum_univ_eq_sum_range (fun s => f s) (J * R), ← tile_sum_range R f J]
  refine Finset.sum_congr rfl fun j _ => ?_
  exact Fin.sum_univ_eq_sum_range (fun r => f (j * R + r)) R

/-- The same with the outer sum over `Fin J`. -/
theorem tile_sum_fin (R : ℕ) (f : ℕ → M) (J : ℕ) :
    ∑ j : Fin J, ∑ r : Fin R, f (j.val * R + r.val) = ∑ s : Fin (J * R), f s.val := by
  rw [← tile_sum R f J]
  exact Fin.sum_univ_eq_sum_range (fun j => ∑ r : Fin R, f (j * R + r.val)) J

end Cert.LibTileSum
-- ==== Proof.Region1.lean ====
import proofs.«160708_j19052474925490_1_alg».proof.Proof.Gen.KernelIdeal.Frame
import proofs.«160708_j19052474925490_1_alg».proof.Proof.Spec
import proofs.«160708_j19052474925490_1_alg».proof.Proof.Region1Pieces
import proofs.«160708_j19052474925490_1_alg».proof.Proof.LibKeepdims
import proofs.«160708_j19052474925490_1_alg».proof.Proof.LibRowLayout
import proofs.«160708_j19052474925490_1_alg».proof.Proof.LibTileSum
import Idealize.ShloMosaic.Lib.ValueIdx
import Idealize.ShloMosaic.Lib.Pipeline.Value
import Idealize.ShloMosaic.PureOps.Ideal.Laws

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-! # The second kernel: the activation array and its two column sums

Over a grid of 20 row blocks of 5000 rows the kernel stores, block by block, h2 = relu(agg * nd + b), and carries from
block to block the column sums of h2 and of h2 * h2, started from zero at the first block and written out after the
last.  Block t of an array with 100000 rows is its rows 5000 t .. 5000 t + 4999. -/

/-! ## The block index of every window at every point, decided over the grid -/

theorem r1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! ## The input blocks are rows of the arrays -/

/-- Block t of the aggregate at (p, q) is the array at row 5000 t + p, column q. -/
theorem r1_blk0_apply (t : Fin cfg1.N) (p : Fin 5000) (q : Fin 128) (k : S100000x128.Idx)
    (hk0 : (k 0).val = 5000 * t.val + p.val) (hk1 : (k 1).val = q.val) :
    (iblk1 V c 0 t : Vec Ideal S5000x128 .f32) (ix2 p q) = (V c main_v38 : S100000x128.Idx → EReal) k := by
  obtain ⟨e0, e1, -⟩ := r1_idx_facts t
  unfold iblk1
  rw [View.read_apply]
  show V c main_v38 _ = V c main_v38 _
  congr 1
  funext a
  apply Fin.ext
  match a with
  | ⟨0, _⟩ => show win1_0.index t 0 * 5000 + 1 * p.val = (k 0).val; rw [e0, hk0]; omega
  | ⟨1, _⟩ => show win1_0.index t 1 * 128 + 1 * q.val = (k 1).val; rw [e1, hk1]; omega

/-- Block t of the normaliser column at (p, 0) is the column at row 5000 t + p. -/
theorem r1_blk1_apply (t : Fin cfg1.N) (p : Fin 5000) (k : S100000x1.Idx)
    (hk0 : (k 0).val = 5000 * t.val + p.val) (hk1 : (k 1).val = 0) :
    (iblk1 V c 1 t : Vec Ideal S5000x1 .f32) (ix2 p (0 : Fin 1)) = (V c main_v22 : S100000x1.Idx → EReal) k := by
  obtain ⟨-, -, e2, e3, -⟩ := r1_idx_facts t
  unfold iblk1
  rw [View.read_apply]
  show V c main_v22 _ = V c main_v22 _
  congr 1
  funext a
  apply Fin.ext
  match a with
  | ⟨0, _⟩ => show win1_1.index t 0 * 5000 + 1 * p.val = (k 0).val; rw [e2, hk0]; omega
  | ⟨1, _⟩ => show win1_1.index t 1 * 1 + 1 * 0 = (k 1).val; rw [e3, hk1]

/-- The bias row's block is the whole row at every point. -/
theorem r1_blk2_apply (t : Fin cfg1.N) (q : Fin 128) :
    (iblk1 V c 2 t : Vec Ideal S1x128 .f32) (ix2 (0 : Fin 1) q) = (V c main_v39 : S1x128.Idx → EReal) (ix2 (0 : Fin 1) q) := by
  obtain ⟨-, -, -, -, e4, e5, -⟩ := r1_idx_facts t
  unfold iblk1
  rw [View.read_apply]
  show V c main_v39 _ = V c main_v39 _
  congr 1
  funext a
  apply Fin.ext
  match a with
  | ⟨0, _⟩ => show win1_2.index t 0 * 1 + 1 * 0 = 0; rw [e4]
  | ⟨1, _⟩ => show win1_2.index t 1 * 128 + 1 * q.val = q.val; rw [e5]; omega

/-- The activation block of point t at (p, q) is h2 at row 5000 t + p, column q. -/
theorem r1_block_apply (agg : S100000x128.Idx → EReal) (nd : S100000.Idx → EReal) (b : S128.Idx → EReal)
    (hagg : (V c main_v38 : S100000x128.Idx → EReal) = agg)
    (hnd : (V c main_v22 : S100000x1.Idx → EReal) = shapeCast S100000x1 nd shapeCasts_S100000_S100000x1)
    (hb : (V c main_v39 : S1x128.Idx → EReal) = shapeCast S1x128 b shapeCasts_S128_S1x128)
    (t : Fin cfg1.N) (p : Fin 5000) (q : Fin 128) (r : Fin 100000) (hr : r.val = 5000 * t.val + p.val) :
    k1_pay3 (iblk1 V c 0 t) (iblk1 V c 1 t) (iblk1 V c 2 t) (ix2 p q) = h2Of agg nd b r q := by
  refine (r1_pay3_apply (iblk1 V c 0 t) (iblk1 V c 1 t) (iblk1 V c 2 t) p q).trans ?_
  unfold h2Of
  refine congrArg₂ max (congrArg₂ (· + ·) (congrArg₂ (· * ·) ?_ ?_) ?_) rfl
  · exact (r1_blk0_apply V c t p q (ix2 r q) hr rfl).trans (congrFun hagg (ix2 r q))
  · exact ((r1_blk1_apply V c t p (ix2 r (0 : Fin 1)) hr rfl).trans (congrFun hnd (ix2 r (0 : Fin 1)))).trans
      (Cert.LibKeepdims.shapeCast_a_a1_apply nd shapeCasts_S100000_S100000x1 r (0 : Fin 1))
  · exact ((r1_blk2_apply V c t q).trans (congrFun hb (ix2 (0 : Fin 1) q))).trans
      (Cert.LibRowLayout.shapeCast_b_1b_apply b shapeCasts_S128_S1x128 (0 : Fin 1) q)

/-! ## What the three output buffers hold after each point -/

/-- After the first point: the activation block, and the two sums started from the zero rows. -/
theorem r1_outsAt_A (t : Fin cfg1.N) (h0 : t.val % 20 = 0) :
    outsAt1 V c t.val t.isLt
      = (k1_pay3 (iblk1 V c 0 t) (iblk1 V c 1 t) (iblk1 V c 2 t),
         k1_pay4 (iblk1 V c 0 t) (iblk1 V c 1 t) (iblk1 V c 2 t) (k1_pay1 (F := Ideal)),
         k1_pay5 (iblk1 V c 0 t) (iblk1 V c 1 t) (iblk1 V c 2 t) (k1_pay2 (F := Ideal))) :=
  (outsAt1_A V c t h0).trans (congrArg₂ Prod.mk
    (r1_out_A_3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t))
    (congrArg₂ Prod.mk
      (r1_out_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t))
      (r1_out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t))))

/-- After a later point: the activation block, and the two sums over what the point before left. -/
theorem r1_outsAt_B (t : Fin cfg1.N) (h0 : ¬t.val % 20 = 0) :
    outsAt1 V c t.val t.isLt
      = (k1_pay3 (iblk1 V c 0 t) (iblk1 V c 1 t) (iblk1 V c 2 t),
         k1_pay4 (iblk1 V c 0 t) (iblk1 V c 1 t) (iblk1 V c 2 t) (outsAt1 V c (t.val - 1) (Nat.lt_of_le_of_lt (Nat.sub_le _ _) t.isLt)).2.1,
         k1_pay5 (iblk1 V c 0 t) (iblk1 V c 1 t) (iblk1 V c 2 t) (outsAt1 V c (t.val - 1) (Nat.lt_of_le_of_lt (Nat.sub_le _ _) t.isLt)).2.2) :=
  (outsAt1_B V c t h0).trans (congrArg₂ Prod.mk
    (r1_out_B_3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2)
    (congrArg₂ Prod.mk
      (r1_out_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2)
      (r1_out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2)))

/-- At every point the activation buffer ends holding the point's activation block. -/
theorem r1_outsAt_fst (t : Fin cfg1.N) : (outsAt1 V c t.val t.isLt).1 = k1_pay3 (iblk1 V c 0 t) (iblk1 V c 1 t) (iblk1 V c 2 t) := by
  by_cases h0 : t.val % 20 = 0
  · exact congrArg Prod.fst (r1_outsAt_A V c t h0)
  · exact congrArg Prod.fst (r1_outsAt_B V c t h0)

/-! ## The running sums: after point n, the sums over the first 5000 (n + 1) rows -/

/-- A function of the rows read at a position counted from the first row (zero past the last row). -/
def r1_lin (g : Fin 100000 → EReal) (s : ℕ) : EReal := if h : s < 100000 then g ⟨s, h⟩ else 0

/-- Twenty tiles of 5000 rows are all the 100000 rows. -/
theorem r1_lin_sum (g : Fin 100000 → EReal) :
    ∑ j ∈ Finset.range 20, ∑ p : Fin 5000, r1_lin g (j * 5000 + p.val) = ∑ r : Fin 100000, g r := by
  rw [Cert.LibTileSum.tile_sum 5000 (r1_lin g) 20]
  show ∑ s : Fin 100000, r1_lin g s.val = _
  refine Finset.sum_congr rfl fun s _ => ?_
  unfold r1_lin
  exact dif_pos s.isLt

/-- The activation block of point n at (p, q), as the row function at position 5000 n + p. -/
theorem r1_block_lin (agg : S100000x128.Idx → EReal) (nd : S100000.Idx → EReal) (b : S128.Idx → EReal)
    (hagg : (V c main_v38 : S100000x128.Idx → EReal) = agg)
    (hnd : (V c main_v22 : S100000x1.Idx → EReal) = shapeCast S100000x1 nd shapeCasts_S100000_S100000x1)
    (hb : (V c main_v39 : S1x128.Idx → EReal) = shapeCast S1x128 b shapeCasts_S128_S1x128)
    (n : ℕ) (hn : n < cfg1.N) (p : Fin 5000) (q : Fin 128) :
    k1_pay3 (iblk1 V c 0 ⟨n, hn⟩) (iblk1 V c 1 ⟨n, hn⟩) (iblk1 V c 2 ⟨n, hn⟩) (ix2 p q) = r1_lin (fun r => h2Of agg nd b r q) (n * 5000 + p.val) := by
  have hN : cfg1.N = 20 := N_1
  have hlt : n * 5000 + p.val < 100000 := by have := p.isLt; omega
  unfold r1_lin
  rw [dif_pos hlt]
  exact r1_block_apply V c agg nd b hagg hnd hb ⟨n, hn⟩ p q ⟨n * 5000 + p.val, hlt⟩ (by show n * 5000 + p.val = 5000 * n + p.val; omega)

/-- The same for the squared activation. -/
theorem r1_block_lin_sq (agg : S100000x128.Idx → EReal) (nd : S100000.Idx → EReal) (b : S128.Idx → EReal)
    (hagg : (V c main_v38 : S100000x128.Idx → EReal) = agg)
    (hnd : (V c main_v22 : S100000x1.Idx → EReal) = shapeCast S100000x1 nd shapeCasts_S100000_S100000x1)
    (hb : (V c main_v39 : S1x128.Idx → EReal) = shapeCast S1x128 b shapeCasts_S128_S1x128)
    (n : ℕ) (hn : n < cfg1.N) (p : Fin 5000) (q : Fin 128) :
    k1_pay3 (iblk1 V c 0 ⟨n, hn⟩) (iblk1 V c 1 ⟨n, hn⟩) (iblk1 V c 2 ⟨n, hn⟩) (ix2 p q) * k1_pay3 (iblk1 V c 0 ⟨n, hn⟩) (iblk1 V c 1 ⟨n, hn⟩) (iblk1 V c 2 ⟨n, hn⟩) (ix2 p q)
      = r1_lin (fun r => h2Of agg nd b r q * h2Of agg nd b r q) (n * 5000 + p.val) := by
  have hN : cfg1.N = 20 := N_1
  have hlt : n * 5000 + p.val < 100000 := by have := p.isLt; omega
  have e := r1_block_apply V c agg nd b hagg hnd hb ⟨n, hn⟩ p q ⟨n * 5000 + p.val, hlt⟩ (by show n * 5000 + p.val = 5000 * n + p.val; omega)
  unfold r1_lin
  rw [dif_pos hlt]
  exact congrArg₂ (· * ·) e e

/-- The first point's sums: the zero row plus the block's column sums is the block's column sums. -/
theorem r1_first4 (x0 : Vec Ideal S5000x128 .f32) (x1 : Vec Ideal S5000x1 .f32) (x2 : Vec Ideal S1x128 .f32) (q : Fin 128) :
    k1_pay4 x0 x1 x2 (k1_pay1 (F := Ideal)) (ix2 (0 : Fin 1) q) = ∑ p : Fin 5000, k1_pay3 x0 x1 x2 (ix2 p q) := by
  rw [r1_pay4_apply, r1_pay1_apply, zero_add]

theorem r1_first5 (x0 : Vec Ideal S5000x128 .f32) (x1 : Vec Ideal S5000x1 .f32) (x2 : Vec Ideal S1x128 .f32) (q : Fin 128) :
    k1_pay5 x0 x1 x2 (k1_pay2 (F := Ideal)) (ix2 (0 : Fin 1) q)
      = ∑ p : Fin 5000, k1_pay3 x0 x1 x2 (ix2 p q) * k1_pay3 x0 x1 x2 (ix2 p q) := by
  rw [r1_pay5_apply, r1_pay2_apply, zero_add]

/-- THE INVARIANT, by induction on the point: after point n the two carried rows hold, at column q, the sums of h2 and
    of h2 * h2 over the rows of blocks 0 .. n. -/
theorem r1_acc (agg : S100000x128.Idx → EReal) (nd : S100000.Idx → EReal) (b : S128.Idx → EReal)
    (hagg : (V c main_v38 : S100000x128.Idx → EReal) = agg)
    (hnd : (V c main_v22 : S100000x1.Idx → EReal) = shapeCast S100000x1 nd shapeCasts_S100000_S100000x1)
    (hb : (V c main_v39 : S1x128.Idx → EReal) = shapeCast S1x128 b shapeCasts_S128_S1x128) (q : Fin 128) : ∀ (n : ℕ) (hn : n < cfg1.N),
    (outsAt1 V c n hn).2.1 (ix2 (0 : Fin 1) q)
        = ∑ j ∈ Finset.range (n + 1), ∑ p : Fin 5000, r1_lin (fun r => h2Of agg nd b r q) (j * 5000 + p.val)
    ∧ (outsAt1 V c n hn).2.2 (ix2 (0 : Fin 1) q)
        = ∑ j ∈ Finset.range (n + 1), ∑ p : Fin 5000, r1_lin (fun r => h2Of agg nd b r q * h2Of agg nd b r q) (j * 5000 + p.val)
  | 0, hn => by
    have e := r1_outsAt_A V c ⟨0, hn⟩ rfl
    have e4 : (outsAt1 V c 0 hn).2.1 = k1_pay4 (iblk1 V c 0 ⟨0, hn⟩) (iblk1 V c 1 ⟨0, hn⟩) (iblk1 V c 2 ⟨0, hn⟩) (k1_pay1 (F := Ideal)) := congrArg (fun z => z.2.1) e
    have e5 : (outsAt1 V c 0 hn).2.2 = k1_pay5 (iblk1 V c 0 ⟨0, hn⟩) (iblk1 V c 1 ⟨0, hn⟩) (iblk1 V c 2 ⟨0, hn⟩) (k1_pay2 (F := Ideal)) := congrArg (fun z => z.2.2) e
    refine ⟨(congrFun e4 (ix2 (0 : Fin 1) q)).trans ?_, (congrFun e5 (ix2 (0 : Fin 1) q)).trans ?_⟩
    · refine (r1_first4 (iblk1 V c 0 ⟨0, hn⟩) (iblk1 V c 1 ⟨0, hn⟩) (iblk1 V c 2 ⟨0, hn⟩) q).trans ?_
      refine Eq.trans ?_ (Finset.sum_range_one _).symm
      exact Finset.sum_congr rfl fun p _ => r1_block_lin V c agg nd b hagg hnd hb 0 hn p q
    · refine (r1_first5 (iblk1 V c 0 ⟨0, hn⟩) (iblk1 V c 1 ⟨0, hn⟩) (iblk1 V c 2 ⟨0, hn⟩) q).trans ?_
      refine Eq.trans ?_ (Finset.sum_range_one _).symm
      exact Finset.sum_congr rfl fun p _ => r1_block_lin_sq V c agg nd b hagg hnd hb 0 hn p q
  | n + 1, hn => by
    have hN : cfg1.N = 20 := N_1
    have hB : ¬(⟨n + 1, hn⟩ : Fin cfg1.N).val % 20 = 0 := by dsimp only; omega
    obtain ⟨ih4, ih5⟩ := r1_acc agg nd b hagg hnd hb q n (Nat.lt_of_succ_lt hn)
    have e := r1_outsAt_B V c ⟨n + 1, hn⟩ hB
    have e4 : (outsAt1 V c (n + 1) hn).2.1
        = k1_pay4 (iblk1 V c 0 ⟨n + 1, hn⟩) (iblk1 V c 1 ⟨n + 1, hn⟩) (iblk1 V c 2 ⟨n + 1, hn⟩) (outsAt1 V c n (Nat.lt_of_succ_lt hn)).2.1 := congrArg (fun z => z.2.1) e
    have e5 : (outsAt1 V c (n + 1) hn).2.2
        = k1_pay5 (iblk1 V c 0 ⟨n + 1, hn⟩) (iblk1 V c 1 ⟨n + 1, hn⟩) (iblk1 V c 2 ⟨n + 1, hn⟩) (outsAt1 V c n (Nat.lt_of_succ_lt hn)).2.2 := congrArg (fun z => z.2.2) e
    refine ⟨(congrFun e4 (ix2 (0 : Fin 1) q)).trans ?_, (congrFun e5 (ix2 (0 : Fin 1) q)).trans ?_⟩
    · refine (r1_pay4_apply (iblk1 V c 0 ⟨n + 1, hn⟩) (iblk1 V c 1 ⟨n + 1, hn⟩) (iblk1 V c 2 ⟨n + 1, hn⟩) (outsAt1 V c n (Nat.lt_of_succ_lt hn)).2.1 q).trans ?_
      rw [Finset.sum_range_succ]
      exact congrArg₂ (· + ·) ih4 (Finset.sum_congr rfl fun p _ => r1_block_lin V c agg nd b hagg hnd hb (n + 1) hn p q)
    · refine (r1_pay5_apply (iblk1 V c 0 ⟨n + 1, hn⟩) (iblk1 V c 1 ⟨n + 1, hn⟩) (iblk1 V c 2 ⟨n + 1, hn⟩) (outsAt1 V c n (Nat.lt_of_succ_lt hn)).2.2 q).trans ?_
      rw [Finset.sum_range_succ]
      exact congrArg₂ (· + ·) ih5 (Finset.sum_congr rfl fun p _ => r1_block_lin_sq V c agg nd b hagg hnd hb (n + 1) hn p q)

/-! ## The activation array: every point writes its block back, and the blocks tile the array -/

/-- h2 as one function of the array index. -/
abbrev r1_G3 (agg : S100000x128.Idx → EReal) (nd : S100000.Idx → EReal) (b : S128.Idx → EReal) : S100000x128.Idx → EReal :=
  fun i => h2Of agg nd b (i 0) (i 1)

/-- What point t writes back is block t of h2. -/
theorem r1_flushed3 (agg : S100000x128.Idx → EReal) (nd : S100000.Idx → EReal) (b : S128.Idx → EReal)
    (hagg : (V c main_v38 : S100000x128.Idx → EReal) = agg)
    (hnd : (V c main_v22 : S100000x1.Idx → EReal) = shapeCast S100000x1 nd shapeCasts_S100000_S100000x1)
    (hb : (V c main_v39 : S1x128.Idx → EReal) = shapeCast S1x128 b shapeCasts_S128_S1x128) (t : Fin cfg1.N) :
    (dat1 V c).flushed 3 t = ((cfg1.win 3).blk t).view.read (Elt Ideal) (r1_G3 agg nd b) := by
  obtain ⟨-, -, -, -, -, -, e6, e7, -⟩ := r1_idx_facts t
  have hN : cfg1.N = 20 := N_1
  show (cfg1.win 3).cut (grid1.coords t) ((dat1 V c).after 3 t) = _
  rw [after1_3, r1_outsAt_fst V c t]
  funext j
  obtain ⟨p, q, rfl⟩ : ∃ (p : Fin 5000) (q : Fin 128), j = ix2 p q := ⟨j 0, j 1, eq_ix2 j⟩
  have hr : 5000 * t.val + p.val < 100000 := by have := t.isLt; have := p.isLt; omega
  show k1_pay3 (iblk1 V c 0 t) (iblk1 V c 1 t) (iblk1 V c 2 t) (ix2 p q)
    = h2Of agg nd b ((((cfg1.win 3).blk t).view.emb (ix2 p q)) 0) ((((cfg1.win 3).blk t).view.emb (ix2 p q)) 1)
  refine (r1_block_apply V c agg nd b hagg hnd hb t p q ⟨5000 * t.val + p.val, hr⟩ rfl).trans ?_
  refine congrArg₂ (h2Of agg nd b) (Fin.ext ?_) (Fin.ext ?_)
  · show 5000 * t.val + p.val = win1_3.index t 0 * 5000 + 1 * p.val; rw [e6]; omega
  · show q.val = win1_3.index t 1 * 128 + 1 * q.val; rw [e7]; omega

/-- An index of the array is in point t's block iff each coordinate is in the block's range on its axis. -/
theorem r1_mem_blk3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v40_0).slice (win1_3.rect t)).set ↔ _
  rw [View.set_slice_whole, Rect.mem_set_unit]
  exact Iff.rfl

/-- So the activation array ends holding h2: row r is covered by the point r / 5000. -/
theorem r1_final3 (agg : S100000x128.Idx → EReal) (nd : S100000.Idx → EReal) (b : S128.Idx → EReal)
    (hagg : (V c main_v38 : S100000x128.Idx → EReal) = agg)
    (hnd : (V c main_v22 : S100000x1.Idx → EReal) = shapeCast S100000x1 nd shapeCasts_S100000_S100000x1)
    (hb : (V c main_v39 : S1x128.Idx → EReal) = shapeCast S1x128 b shapeCasts_S128_S1x128) : (dat1 V c).arrAt 3 cfg1.N = r1_G3 agg nd b :=
  (dat1 V c).arrAt_eq_of_cover 3 (r1_G3 agg nd b) (fun t _ => r1_flushed3 V c agg nd b hagg hnd hb t) fun i => by
    have hN : cfg1.N = 20 := N_1
    have hi0 : (i 0).val < 100000 := (i 0).isLt
    have hi1 : (i 1).val < 128 := (i 1).isLt
    have ht : (i 0).val / 5000 < cfg1.N := by omega
    obtain ⟨-, -, -, -, -, -, e6, e7, -⟩ := r1_idx_facts ⟨(i 0).val / 5000, ht⟩
    refine ⟨⟨(i 0).val / 5000, ht⟩, flush1_3 _, ?_⟩
    rw [r1_mem_blk3]
    intro a
    match a with
    | ⟨0, _⟩ =>
      show win1_3.index ⟨(i 0).val / 5000, ht⟩ 0 * 5000 ≤ (i 0).val ∧ (i 0).val < win1_3.index ⟨(i 0).val / 5000, ht⟩ 0 * 5000 + 5000
      rw [e6]; dsimp only; omega
    | ⟨1, _⟩ =>
      show win1_3.index ⟨(i 0).val / 5000, ht⟩ 1 * 128 ≤ (i 1).val ∧ (i 1).val < win1_3.index ⟨(i 0).val / 5000, ht⟩ 1 * 128 + 128
      rw [e7]; omega

/-! ## The two sum rows: written back once, after the last point, whose block is the whole row -/

theorem r1_last : (19 : ℕ) < cfg1.N := by rw [show cfg1.N = 20 from N_1]; decide

abbrev r1_t19 : Fin cfg1.N := ⟨19, r1_last⟩

/-- The one write-back of the column sums, at the last point, writes what the buffer then holds. -/
theorem r1_flushed4 (t : Fin cfg1.N) (hf : (cfg1.win 4).flush t = true) :
    (dat1 V c).flushed 4 t = ((cfg1.win 4).blk t).view.read (Elt Ideal)
      ((outsAt1 V c 19 r1_last).2.1 : Buf (Elt Ideal) ((c : Thread nD τ).loc main_v40_1)) := by
  have hN : cfg1.N = 20 := N_1
  have h19 : t.val = 19 := by have := (flush1_4 t).mp hf; have := t.isLt; omega
  obtain rfl : t = r1_t19 := Fin.ext h19
  obtain ⟨-, -, -, -, -, -, -, -, e8, e9, -⟩ := r1_idx_facts r1_t19
  show (cfg1.win 4).cut (grid1.coords r1_t19) ((dat1 V c).after 4 r1_t19) = _
  rw [after1_4]
  have hz' : (fun a => win1_4.index r1_t19 a * main_v40_1.ty.shape.size a) = fun _ => 0 := funext fun a => by
    match a with
    | ⟨0, _⟩ => show win1_4.index r1_t19 0 * 1 = 0; rw [e8]
    | ⟨1, _⟩ => show win1_4.index r1_t19 1 * 128 = 0; rw [e9]
  exact (Memref.read_access_unit_zero (Elt Ideal) main_v40_1 hz' (fun a => by rw [congrFun hz' a]; simp)
    ((outsAt1 V c 19 r1_last).2.1 : Buf (Elt Ideal) ((c : Thread nD τ).loc main_v40_1))).symm

/-- The same for the column sums of squares. -/
theorem r1_flushed5 (t : Fin cfg1.N) (hf : (cfg1.win 5).flush t = true) :
    (dat1 V c).flushed 5 t = ((cfg1.win 5).blk t).view.read (Elt Ideal)
      ((outsAt1 V c 19 r1_last).2.2 : Buf (Elt Ideal) ((c : Thread nD τ).loc main_v40_2)) := by
  have hN : cfg1.N = 20 := N_1
  have h19 : t.val = 19 := by have := (flush1_5 t).mp hf; have := t.isLt; omega
  obtain rfl : t = r1_t19 := Fin.ext h19
  obtain ⟨-, -, -, -, -, -, -, -, -, -, e10, e11⟩ := r1_idx_facts r1_t19
  show (cfg1.win 5).cut (grid1.coords r1_t19) ((dat1 V c).after 5 r1_t19) = _
  rw [after1_5]
  have hz' : (fun a => win1_5.index r1_t19 a * main_v40_2.ty.shape.size a) = fun _ => 0 := funext fun a => by
    match a with
    | ⟨0, _⟩ => show win1_5.index r1_t19 0 * 1 = 0; rw [e10]
    | ⟨1, _⟩ => show win1_5.index r1_t19 1 * 128 = 0; rw [e11]
  exact (Memref.read_access_unit_zero (Elt Ideal) main_v40_2 hz' (fun a => by rw [congrFun hz' a]; simp)
    ((outsAt1 V c 19 r1_last).2.2 : Buf (Elt Ideal) ((c : Thread nD τ).loc main_v40_2))).symm

/-- So the column-sum array ends holding what the buffer holds after the last point. -/
theorem r1_final4 : (dat1 V c).arrAt 4 cfg1.N = (outsAt1 V c 19 r1_last).2.1 :=
  (dat1 V c).arrAt_eq_of_cover 4 _ (r1_flushed4 V c) fun i =>
    ⟨r1_t19, (flush1_4 r1_t19).mpr rfl, by
      obtain ⟨-, -, -, -, -, -, -, -, e8, e9, -⟩ := r1_idx_facts r1_t19
      show i ∈ ((View.whole main_v40_1).slice (win1_4.rect r1_t19)).set
      rw [View.set_slice_whole, Rect.mem_set_unit]
      intro a
      have h0 : (i 0 : Nat) < 1 := (i 0).isLt
      have h1 : (i 1 : Nat) < 128 := (i 1).isLt
      match a with
      | ⟨0, _⟩ => show win1_4.index r1_t19 0 * 1 ≤ (i 0 : Nat) ∧ (i 0 : Nat) < win1_4.index r1_t19 0 * 1 + 1
                  rw [e8]; omega
      | ⟨1, _⟩ => show win1_4.index r1_t19 1 * 128 ≤ (i 1 : Nat) ∧ (i 1 : Nat) < win1_4.index r1_t19 1 * 128 + 128
                  rw [e9]; omega⟩

/-- And the column-sum-of-squares array likewise. -/
theorem r1_final5 : (dat1 V c).arrAt 5 cfg1.N = (outsAt1 V c 19 r1_last).2.2 :=
  (dat1 V c).arrAt_eq_of_cover 5 _ (r1_flushed5 V c) fun i =>
    ⟨r1_t19, (flush1_5 r1_t19).mpr rfl, by
      obtain ⟨-, -, -, -, -, -, -, -, -, -, e10, e11⟩ := r1_idx_facts r1_t19
      show i ∈ ((View.whole main_v40_2).slice (win1_5.rect r1_t19)).set
      rw [View.set_slice_whole, Rect.mem_set_unit]
      intro a
      have h0 : (i 0 : Nat) < 1 := (i 0).isLt
      have h1 : (i 1 : Nat) < 128 := (i 1).isLt
      match a with
      | ⟨0, _⟩ => show win1_5.index r1_t19 0 * 1 ≤ (i 0 : Nat) ∧ (i 0 : Nat) < win1_5.index r1_t19 0 * 1 + 1
                  rw [e10]; omega
      | ⟨1, _⟩ => show win1_5.index r1_t19 1 * 128 ≤ (i 1 : Nat) ∧ (i 1 : Nat) < win1_5.index r1_t19 1 * 128 + 128
                  rw [e11]; omega⟩

/-! ## The region's three results -/

/-- The activation array after the region is h2, entry by entry. -/
theorem region1_h2 (agg : S100000x128.Idx → EReal) (nd : S100000.Idx → EReal) (b : S128.Idx → EReal)
    (hagg : (V c main_v38 : S100000x128.Idx → EReal) = agg)
    (hnd : (V c main_v22 : S100000x1.Idx → EReal) = shapeCast S100000x1 nd shapeCasts_S100000_S100000x1)
    (hb : (V c main_v39 : S1x128.Idx → EReal) = shapeCast S1x128 b shapeCasts_S128_S1x128)
    (r : Fin 100000) (q : Fin 128) :
    ((dat1 (F := Ideal) V c).arrAt 3 cfg1.N : Buf (Elt Ideal) ((c : Thread nD τ).loc main_v40_0)) (ix2 r q)
      = h2Of agg nd b r q :=
  congrFun (r1_final3 V c agg nd b hagg hnd hb) (ix2 r q)

/-- The first sum row after the region is, at column q, the sum of h2 over all 100000 rows. -/
theorem region1_sum (agg : S100000x128.Idx → EReal) (nd : S100000.Idx → EReal) (b : S128.Idx → EReal)
    (hagg : (V c main_v38 : S100000x128.Idx → EReal) = agg)
    (hnd : (V c main_v22 : S100000x1.Idx → EReal) = shapeCast S100000x1 nd shapeCasts_S100000_S100000x1)
    (hb : (V c main_v39 : S1x128.Idx → EReal) = shapeCast S1x128 b shapeCasts_S128_S1x128)
    (q : Fin 128) :
    ((dat1 (F := Ideal) V c).arrAt 4 cfg1.N : Buf (Elt Ideal) ((c : Thread nD τ).loc main_v40_1)) (ix2 (0 : Fin 1) q)
      = ∑ r : Fin 100000, h2Of agg nd b r q :=
  ((congrFun (r1_final4 V c) (ix2 (0 : Fin 1) q)).trans (r1_acc V c agg nd b hagg hnd hb q 19 r1_last).1).trans
    (r1_lin_sum fun r => h2Of agg nd b r q)

/-- The second sum row after the region is, at column q, the sum of h2 * h2 over all 100000 rows. -/
theorem region1_sumsq (agg : S100000x128.Idx → EReal) (nd : S100000.Idx → EReal) (b : S128.Idx → EReal)
    (hagg : (V c main_v38 : S100000x128.Idx → EReal) = agg)
    (hnd : (V c main_v22 : S100000x1.Idx → EReal) = shapeCast S100000x1 nd shapeCasts_S100000_S100000x1)
    (hb : (V c main_v39 : S1x128.Idx → EReal) = shapeCast S1x128 b shapeCasts_S128_S1x128)
    (q : Fin 128) :
    ((dat1 (F := Ideal) V c).arrAt 5 cfg1.N : Buf (Elt Ideal) ((c : Thread nD τ).loc main_v40_2)) (ix2 (0 : Fin 1) q)
      = ∑ r : Fin 100000, h2Of agg nd b r q * h2Of agg nd b r q :=
  ((congrFun (r1_final5 V c) (ix2 (0 : Fin 1) q)).trans (r1_acc V c agg nd b hagg hnd hb q 19 r1_last).2).trans
    (r1_lin_sum fun r => h2Of agg nd b r q * h2Of agg nd b r q)

end Cert.KernelIdeal.Val

end
-- ==== Proof.Region2.lean ====
import proofs.«160708_j19052474925490_1_alg».proof.Proof.Gen.KernelIdeal.Frame
import proofs.«160708_j19052474925490_1_alg».proof.Proof.Spec
import proofs.«160708_j19052474925490_1_alg».proof.Proof.LibRowLayout
import Idealize.ShloMosaic.Lib.ValueIdx
import Idealize.ShloMosaic.Lib.Pipeline.Value
import Idealize.ShloMosaic.PureOps.Ideal.Laws

/-!
# The third region: the normalised activations, entry by entry

The region walks the 20 row blocks of 5000 rows.  At block `t` it reads rows `5000 t … 5000 t + 4999` of the
activations `h2` and, whole, the four one-row arrays (mean, reciprocal standard deviation, scale, shift), and
writes rows `5000 t … 5000 t + 4999` of the result:
`y[r, q] = (h2[r, q] − mean[0, q]) · rstd[0, q] · scale[0, q] + shift[0, q]`.
An entry of the result depends on the same entry of `h2` and on column `q` of the four rows only.
The 20 blocks tile the 100000 rows, so the whole array ends holding that function.
-/

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

theorem r2_hz : (![0, 0] : Fin 2 → Nat) = fun _ => 0 := funext fun a => by fin_cases a <;> rfl

/-- The normalised entry at row `r`, column `q`: the activation minus the column's mean, times the column's
    reciprocal standard deviation, times the column's scale, plus the column's shift. -/
def r2_val (h2 : S100000x128.Idx → EReal) (mu rs ga be : S1x128.Idx → EReal) (r : Fin 100000) (q : Fin 128) : EReal :=
  (h2 (ix2 r q) - mu (ix2 (0 : Fin 1) q)) * rs (ix2 (0 : Fin 1) q) * ga (ix2 (0 : Fin 1) q) + be (ix2 (0 : Fin 1) q)

/-- The whole result array as one function of the five arrays the region reads. -/
def r2_G (h2 : S100000x128.Idx → EReal) (mu rs ga be : S1x128.Idx → EReal) : S100000x128.Idx → EReal :=
  fun i => r2_val h2 mu rs ga be (i 0) (i 1)

/-- The body's one stored value at an entry `(p, q)` of the block: pointwise arithmetic of the block of activations
    at `(p, q)` and of the four rows at `(0, q)` (a row spread over the 5000 rows reads its column `q`). -/
theorem r2_pay_apply (x0 : Vec Ideal S5000x128 .f32) (x1 x2 x3 x4 : Vec Ideal S1x128 .f32) (p : Fin 5000) (q : Fin 128) :
    k2_pay1 x0 x1 x2 x3 x4 (ix2 p q)
      = (x0 (ix2 p q) - x1 (ix2 (0 : Fin 1) q)) * x2 (ix2 (0 : Fin 1) q) * x3 (ix2 (0 : Fin 1) q) + x4 (ix2 (0 : Fin 1) q) := by
  unfold k2_pay1
  rw [addf_apply, mulf_apply, mulf_apply, subf_apply]
  simp only [shapeCast_self]
  rw [Cert.LibRowLayout.broadcastTo_1b_ab_apply, Cert.LibRowLayout.broadcastTo_1b_ab_apply,
    Cert.LibRowLayout.broadcastTo_1b_ab_apply, Cert.LibRowLayout.broadcastTo_1b_ab_apply]

/-- The stored value at `(p, q)` is the whole-array function at an index `k` of the array, as soon as the block of
    activations at `(p, q)` is the array of activations at `k` and `k` is in column `q`. -/
theorem r2_point (x0 : Vec Ideal S5000x128 .f32) (x1 x2 x3 x4 : Vec Ideal S1x128 .f32) (h2 : S100000x128.Idx → EReal)
    (p : Fin 5000) (q : Fin 128) (k : S100000x128.Idx) (e0 : x0 (ix2 p q) = h2 k) (hq : (k 1).val = q.val) :
    k2_pay1 x0 x1 x2 x3 x4 (ix2 p q) = r2_G h2 x1 x2 x3 x4 k := by
  obtain ⟨r, q', rfl⟩ : ∃ (r : Fin 100000) (q' : Fin 128), k = ix2 r q' := ⟨k 0, k 1, eq_ix2 k⟩
  obtain rfl : q' = q := Fin.ext hq
  rw [r2_pay_apply, e0]
  rfl

/-- The printed index maps, decided over the grid: at point `t` the activations' block and the result's block are
    block `t` of the rows, all columns; each of the four rows is read whole. -/
theorem r2_idx_facts : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The block of activations at point `t`, entry `(p, q)`, is the array of activations at any index `k` in row
    `5000 t + p`, column `q`. -/
theorem r2_blk0_apply (t : Fin cfg2.N) (p : Fin 5000) (q : Fin 128) (k : S100000x128.Idx)
    (hk0 : (k 0).val = 5000 * t.val + p.val) (hk1 : (k 1).val = q.val) :
    (iblk2 V c 0 t : Vec Ideal S5000x128 .f32) (ix2 p q) = (V c main_v40_0 : S100000x128.Idx → EReal) k := by
  obtain ⟨e00, e01, -⟩ := r2_idx_facts t
  unfold iblk2
  rw [View.read_apply]
  show V c main_v40_0 _ = V c main_v40_0 k
  congr 1
  funext a
  apply Fin.ext
  match a with
  | ⟨0, _⟩ => show win2_0.index t (0 : Fin 2) * 5000 + 1 * p.val = (k 0).val; rw [e00, hk0]; omega
  | ⟨1, _⟩ => show win2_0.index t (1 : Fin 2) * 128 + 1 * q.val = (k 1).val; rw [e01, hk1]; omega

/-- The mean row's block at every point is the whole row. -/
theorem r2_row1 (t : Fin cfg2.N) : (iblk2 V c 1 t : Vec Ideal S1x128 .f32) = (V c main_v42 : S1x128.Idx → EReal) := by
  obtain ⟨-, -, -, -, e0, e1, -⟩ := r2_idx_facts t
  funext y
  unfold iblk2
  rw [View.read_apply]
  show V c main_v42 _ = V c main_v42 y
  congr 1
  funext a
  apply Fin.ext
  match a with
  | ⟨0, _⟩ => show win2_1.index t (0 : Fin 2) * 1 + 1 * (y 0).val = (y 0).val; rw [e0]; omega
  | ⟨1, _⟩ => show win2_1.index t (1 : Fin 2) * 128 + 1 * (y 1).val = (y 1).val; rw [e1]; omega

/-- The reciprocal standard deviation row's block at every point is the whole row. -/
theorem r2_row2 (t : Fin cfg2.N) : (iblk2 V c 2 t : Vec Ideal S1x128 .f32) = (V c main_v49 : S1x128.Idx → EReal) := by
  obtain ⟨-, -, -, -, -, -, e0, e1, -⟩ := r2_idx_facts t
  funext y
  unfold iblk2
  rw [View.read_apply]
  show V c main_v49 _ = V c main_v49 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The scale row's block at every point is the whole row. -/
theorem r2_row3 (t : Fin cfg2.N) : (iblk2 V c 3 t : Vec Ideal S1x128 .f32) = (V c main_v50 : S1x128.Idx → EReal) := by
  obtain ⟨-, -, -, -, -, -, -, -, e0, e1, -⟩ := r2_idx_facts t
  funext y
  unfold iblk2
  rw [View.read_apply]
  show V c main_v50 _ = V c main_v50 y
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The shift row's block at every point is the whole row. -/
theorem r2_row4 (t : Fin cfg2.N) : (iblk2 V c 4 t : Vec Ideal S1x128 .f32) = (V c main_v51 : S1x128.Idx → EReal) := by
  obtain ⟨-, -, -, -, -, -, -, -, -, -, e0, e1⟩ := r2_idx_facts t
  funext y
  unfold iblk2
  rw [View.read_apply]
  show V c main_v51 _ = V c main_v51 y
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- WHAT POINT `t` WRITES BACK is block `t` of the whole-array function of the five arrays as the region finds
    them: the block's entry `(p, q)` sits at row `5000 t + p`, column `q`, of the array. -/
theorem r2_flushed_eq (t : Fin cfg2.N) :
    (dat2 (F := Ideal) V c).flushed 5 t = ((cfg2.win 5).blk t).view.read (Elt Ideal)
      (r2_G (V c main_v40_0) (V c main_v42) (V c main_v49) (V c main_v50) (V c main_v51)) := by
  show (cfg2.win 5).cut (grid2.coords t) ((dat2 V c).after 5 t) = _
  rw [after2_5]
  unfold out2_5
  rw [View.canon_unit_zero r2_hz]
  simp only [View.ld_unit_zero (S := S5000x128) r2_hz, View.ld_unit_zero (S := S1x128) r2_hz]
  rw [r2_row1 V c t, r2_row2 V c t, r2_row3 V c t, r2_row4 V c t]
  have hN : cfg2.N = 20 := N_2
  have ht : t.val < 20 := hN ▸ t.isLt
  obtain ⟨-, -, e50, e51, -⟩ := r2_idx_facts t
  have key : (k2_pay1 (iblk2 V c 0 t) (V c main_v42) (V c main_v49) (V c main_v50) (V c main_v51) : S5000x128.Idx → EReal)
      = fun j : S5000x128.Idx => r2_G (V c main_v40_0) (V c main_v42) (V c main_v49) (V c main_v50) (V c main_v51)
          (((cfg2.win 5).blk t).view.emb j) := by
    funext j
    obtain ⟨p, q, rfl⟩ : ∃ (p : Fin 5000) (q : Fin 128), j = ix2 p q := ⟨j 0, j 1, eq_ix2 j⟩
    refine r2_point (iblk2 V c 0 t) (V c main_v42) (V c main_v49) (V c main_v50) (V c main_v51) (V c main_v40_0) p q _ ?_ ?_
    · refine r2_blk0_apply V c t p q _ ?_ ?_
      · show win2_5.index t (0 : Fin 2) * 5000 + 1 * p.val = 5000 * t.val + p.val
        rw [e50]; omega
      · show win2_5.index t (1 : Fin 2) * 128 + 1 * q.val = q.val
        rw [e51]; omega
    · show win2_5.index t (1 : Fin 2) * 128 + 1 * q.val = q.val
      rw [e51]; omega
  exact key

/-- An index of the result array is in point `t`'s block iff each coordinate is in the block's range on its axis. -/
theorem r2_mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v52).slice (win2_5.rect t)).set ↔ _
  rw [View.set_slice_whole, Rect.mem_set_unit]
  exact Iff.rfl

/-- Every index of the result array is in a written-back block: row `r` is in block `r / 5000`. -/
theorem r2_cover (i : S100000x128.Idx) :
    ∃ t : Fin cfg2.N, (cfg2.win 5).flush t = true ∧ i ∈ ((cfg2.win 5).blk t).view.set := by
  have hN : cfg2.N = 20 := N_2
  have hi0 : (i 0).val < 100000 := (i 0).isLt
  have hi1 : (i 1).val < 128 := (i 1).isLt
  obtain ⟨t, ht⟩ : ∃ t : Fin cfg2.N, t.val = (i 0).val / 5000 := ⟨⟨(i 0).val / 5000, by rw [hN]; omega⟩, rfl⟩
  obtain ⟨-, -, e50, e51, -⟩ := r2_idx_facts t
  refine ⟨t, flush2_5 t, ?_⟩
  rw [r2_mem_blk]
  intro a
  match a with
  | ⟨0, _⟩ => show win2_5.index t (0 : Fin 2) * 5000 ≤ (i 0).val ∧ (i 0).val < win2_5.index t (0 : Fin 2) * 5000 + 5000; rw [e50, ht]; omega
  | ⟨1, _⟩ => show win2_5.index t (1 : Fin 2) * 128 ≤ (i 1).val ∧ (i 1).val < win2_5.index t (1 : Fin 2) * 128 + 128; rw [e51]; omega

/-- THE RESULT ARRAY after the region: the whole-array function of the five arrays as the region finds them. -/
theorem r2_final :
    (dat2 (F := Ideal) V c).arrAt 5 cfg2.N
      = r2_G (V c main_v40_0) (V c main_v42) (V c main_v49) (V c main_v50) (V c main_v51) :=
  (dat2 (F := Ideal) V c).arrAt_eq_of_cover 5 _ (fun t _ => r2_flushed_eq V c t) r2_cover

/-- The result array after the region, entry by entry: `(h2 − mean) · rstd · scale + shift`, the scale and the shift
    being vectors viewed as one-row arrays. -/
theorem region2_arr (h2 : S100000x128.Idx → EReal) (mu rs : S1x128.Idx → EReal) (g be : S128.Idx → EReal)
    (hh : (V c main_v40_0 : S100000x128.Idx → EReal) = h2)
    (hmu : (V c main_v42 : S1x128.Idx → EReal) = mu)
    (hrs : (V c main_v49 : S1x128.Idx → EReal) = rs)
    (hg : (V c main_v50 : S1x128.Idx → EReal) = shapeCast S1x128 g shapeCasts_S128_S1x128)
    (hbe : (V c main_v51 : S1x128.Idx → EReal) = shapeCast S1x128 be shapeCasts_S128_S1x128)
    (r : Fin 100000) (q : Fin 128) :
    ((dat2 (F := Ideal) V c).arrAt 5 cfg2.N : Buf (Elt Ideal) ((c : Thread nD τ).loc main_v52)) (ix2 r q)
      = (h2 (ix2 r q) - mu (ix2 (0 : Fin 1) q)) * rs (ix2 (0 : Fin 1) q) * g (ix1 q) + be (ix1 q) := by
  rw [r2_final V c, hh, hmu, hrs, hg, hbe]
  show r2_val h2 mu rs _ _ r q = _
  unfold r2_val
  rw [Cert.LibRowLayout.shapeCast_b_1b_apply, Cert.LibRowLayout.shapeCast_b_1b_apply]

end Cert.KernelIdeal.Val

end
-- ==== Proof.RefEntries.lean ====
/-
  The reference computation read entry by entry over the extended reals.  Five stages matter downstream: the
  scaled product h = (x · W) · ns (row r scaled by the source normaliser of row r), the activation
  h2 = relu(agg · nd + b), the column means of h2, the column means of the squared deviations from those means,
  and the normalised output (h2 − mean) · rsqrt(var + ε) · γ + β.  Each is a chain of entrywise operations and
  broadcasts of a per-row or per-column vector, so an entry (r, q) reads the row vectors at r and the column
  vectors at q; a column mean is the sum over the 100000 rows divided by the constant 100000.
-/
import proofs.«160708_j19052474925490_1_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.TcCoe
open Idealize.ShloMosaic.ValueIdx

variable (x0 : (⟨S100000x256, .f32⟩ : BufTy).Contents (Elt Ideal)) (x1 x2 : (⟨S1600000, .i32⟩ : BufTy).Contents (Elt Ideal))
  (x3 : (⟨S256x128, .f32⟩ : BufTy).Contents (Elt Ideal)) (x4 x5 x6 : (⟨S128, .f32⟩ : BufTy).Contents (Elt Ideal))

/-- Entry (r, q) of the product reads row r of x … -/
theorem lidx_v21_at (r : Fin 100000) (q : Fin 128) (k : Fin 256) : lidx_main_v21 (ix2 r q) k = ix2 r k :=
  funext fun a => Fin.ext (by match a with | ⟨0, _⟩ => rfl | ⟨1, _⟩ => rfl)

/-- … and column q of the weights. -/
theorem ridx_v21_at (r : Fin 100000) (q : Fin 128) (k : Fin 256) : ridx_main_v21 (ix2 r q) k = ix2 k q :=
  funext fun a => Fin.ext (by match a with | ⟨0, _⟩ => rfl | ⟨1, _⟩ => rfl)

/-- The source normaliser spread over the columns reads, at (r, q), its entry r. -/
theorem idx_v22_v23_at (r : Fin 100000) (q : Fin 128) : idx_main_v22 (idx_main_v23 (ix2 r q)) = ix1 r :=
  funext fun a => Fin.ext (by match a with | ⟨0, _⟩ => rfl)

/-- h at (r, q): row r of x against column q of W, summed over the 256 features, times the source normaliser
    of row r. -/
theorem v24_entry (r : Fin 100000) (q : Fin 128) :
    val_main_v24 (F := Ideal) x0 x1 x3 (ix2 r q)
      = (∑ k : Fin 256, x0 (ix2 r k) * x3 (ix2 k q)) * val_main_v19 (F := Ideal) x1 (ix1 r) := by
  rw [val_main_v24_apply, val_main_v21_apply, val_main_v23_apply, val_main_v22_apply]
  simp only [lidx_v21_at, ridx_v21_at, idx_v22_v23_at, Ideal.mulf_def]

/-- The destination normaliser spread over the columns reads, at (r, q), its entry r. -/
theorem idx_v40_v41_at (r : Fin 100000) (q : Fin 128) : idx_main_v40 (idx_main_v41 (ix2 r q)) = ix1 r :=
  funext fun a => Fin.ext (by match a with | ⟨0, _⟩ => rfl)

/-- The bias spread over the rows reads, at (r, q), its entry q. -/
theorem idx_v43_v44_at (r : Fin 100000) (q : Fin 128) : idx_main_v43 (idx_main_v44 (ix2 r q)) = ix1 q :=
  funext fun a => Fin.ext (by match a with | ⟨0, _⟩ => rfl)

/-- h2 at (r, q): the aggregated messages times the destination normaliser of row r, plus the bias of column q,
    clamped below at zero. -/
theorem v46_entry (r : Fin 100000) (q : Fin 128) :
    val_main_v46 (F := Ideal) x0 x1 x2 x3 x4 (ix2 r q)
      = max (val_main_v39 (F := Ideal) x0 x1 x2 x3 (ix2 r q) * val_main_v20 (F := Ideal) x2 (ix1 r) + x4 (ix1 q)) 0 := by
  rw [val_main_v46_apply, val_main_v45_apply, val_main_v42_apply, val_main_v41_apply, val_main_v40_apply,
    val_main_v44_apply, val_main_v43_apply, val_main_call2_v0_apply, val_main_call2_cst_apply]
  simp only [idx_v40_v41_at, idx_v43_v44_at, Ideal.maximumf_def, Ideal.addf_def, Ideal.mulf_def, Ideal.ofBits_def,
    Ideal.ofBits_zero_f32]

/-- The sum down column q reads, at its k-th term, entry (k, q). -/
theorem idx_v47_at (q : Fin 128) (k : Fin 100000) : idx_main_v47 (ix1 q) k = ix2 k q :=
  funext fun a => Fin.ext (by match a with | ⟨0, _⟩ => rfl | ⟨1, _⟩ => rfl)

/-- The mean of column q of h2: the sum over the 100000 rows (the sum starts from zero) divided by the
    constant 100000. -/
theorem v49_entry (q : Fin 128) :
    val_main_v49 (F := Ideal) x0 x1 x2 x3 x4 (ix1 q)
      = Ideal.div (∑ r : Fin 100000, val_main_v46 (F := Ideal) x0 x1 x2 x3 x4 (ix2 r q)) (Ideal.ofBits .f32 0x47C35000#32) := by
  rw [val_main_v49_apply, val_main_v47_apply, val_main_v48_apply, val_main_cst_13_apply, val_main_cst_12_apply]
  simp only [idx_v47_at, Ideal.hostDivf_def, Ideal.ofBits_def, Ideal.ofBits_zero_f32, zero_add]

/-- The sum of squared deviations down column q reads, at its k-th term, entry (k, q). -/
theorem idx_v54_at (q : Fin 128) (k : Fin 100000) : idx_main_v54 (ix1 q) k = ix2 k q :=
  funext fun a => Fin.ext (by match a with | ⟨0, _⟩ => rfl | ⟨1, _⟩ => rfl)

/-- The column means spread over the rows read, at (r, q), the mean of column q. -/
theorem idx_v50_v51_at (r : Fin 100000) (q : Fin 128) : idx_main_v50 (idx_main_v51 (ix2 r q)) = ix1 q :=
  funext fun a => Fin.ext (by match a with | ⟨0, _⟩ => rfl)

/-- The squared deviation at (r, q): h2 less the mean of column q, times itself. -/
theorem v53_entry (r : Fin 100000) (q : Fin 128) :
    val_main_v53 (F := Ideal) x0 x1 x2 x3 x4 (ix2 r q)
      = (val_main_v46 (F := Ideal) x0 x1 x2 x3 x4 (ix2 r q) - val_main_v49 (F := Ideal) x0 x1 x2 x3 x4 (ix1 q))
          * (val_main_v46 (F := Ideal) x0 x1 x2 x3 x4 (ix2 r q) - val_main_v49 (F := Ideal) x0 x1 x2 x3 x4 (ix1 q)) := by
  rw [val_main_v53_apply, val_main_v52_apply, val_main_v51_apply, val_main_v50_apply, idx_v50_v51_at]
  simp only [Ideal.mulf_def, Ideal.subf_def]

/-- The variance of column q of h2: the squared deviations from the column's mean, summed over the 100000 rows
    (the sum starts from zero) and divided by the constant 100000. -/
theorem v56_entry (q : Fin 128) :
    val_main_v56 (F := Ideal) x0 x1 x2 x3 x4 (ix1 q)
      = Ideal.div (∑ r : Fin 100000, (val_main_v46 (F := Ideal) x0 x1 x2 x3 x4 (ix2 r q) - val_main_v49 (F := Ideal) x0 x1 x2 x3 x4 (ix1 q))
          * (val_main_v46 (F := Ideal) x0 x1 x2 x3 x4 (ix2 r q) - val_main_v49 (F := Ideal) x0 x1 x2 x3 x4 (ix1 q))) (Ideal.ofBits .f32 0x47C35000#32) := by
  rw [val_main_v56_apply, val_main_v54_apply, val_main_v55_apply, val_main_cst_15_apply, val_main_cst_14_apply]
  simp only [idx_v54_at, v53_entry, Ideal.hostDivf_def, Ideal.ofBits_def, Ideal.ofBits_zero_f32, zero_add]

/-- The column means, spread a second time over the rows, read at (r, q) the mean of column q … -/
theorem idx_v57_v58_at (r : Fin 100000) (q : Fin 128) : idx_main_v57 (idx_main_v58 (ix2 r q)) = ix1 q :=
  funext fun a => Fin.ext (by match a with | ⟨0, _⟩ => rfl)

/-- … the reciprocal standard deviations the one of column q … -/
theorem idx_v63_v64_at (r : Fin 100000) (q : Fin 128) : idx_main_v63 (idx_main_v64 (ix2 r q)) = ix1 q :=
  funext fun a => Fin.ext (by match a with | ⟨0, _⟩ => rfl)

/-- … the scale its entry q … -/
theorem idx_v66_v67_at (r : Fin 100000) (q : Fin 128) : idx_main_v66 (idx_main_v67 (ix2 r q)) = ix1 q :=
  funext fun a => Fin.ext (by match a with | ⟨0, _⟩ => rfl)

/-- … and the shift its entry q. -/
theorem idx_v69_v70_at (r : Fin 100000) (q : Fin 128) : idx_main_v69 (idx_main_v70 (ix2 r q)) = ix1 q :=
  funext fun a => Fin.ext (by match a with | ⟨0, _⟩ => rfl)

/-- The output at (r, q): h2 less the mean of column q, times the reciprocal square root of the column's variance
    plus ε, times the scale of column q, plus the shift of column q. -/
theorem v71_entry (r : Fin 100000) (q : Fin 128) :
    val_main_v71 (F := Ideal) x0 x1 x2 x3 x4 x5 x6 (ix2 r q)
      = (val_main_v46 (F := Ideal) x0 x1 x2 x3 x4 (ix2 r q) - val_main_v49 (F := Ideal) x0 x1 x2 x3 x4 (ix1 q))
          * Ideal.rsqrt (val_main_v56 (F := Ideal) x0 x1 x2 x3 x4 (ix1 q) + Ideal.ofBits .f32 0x3727C5AC#32) * x5 (ix1 q) + x6 (ix1 q) := by
  rw [val_main_v71_apply, val_main_v68_apply, val_main_v65_apply, val_main_v59_apply, val_main_v58_apply,
    val_main_v57_apply, val_main_v64_apply, val_main_v63_apply, val_main_v62_apply, val_main_v61_apply,
    val_main_v60_apply, val_main_cst_16_apply, val_main_v67_apply, val_main_v66_apply, val_main_v70_apply,
    val_main_v69_apply]
  simp only [idx_v57_v58_at, idx_v63_v64_at, idx_v66_v67_at, idx_v69_v70_at, Ideal.hostUnary_rsqrt_def,
    Ideal.mulf_def, Ideal.addf_def, Ideal.subf_def, Ideal.ofBits_def]

end Cert.ReferenceIdeal.RefValue

end
-- ==== Proof.LibRecipMean.lean ====
/-
  Small facts about extended-real arithmetic and identity conversions that a mean over a clamped count needs; none
  mentions a program.

  * a product with the reciprocal of a NONZERO divisor is the quotient, at the infinities too (the quotient by d ≠ 0 is
    by definition the product with d⁻¹, and 1 / d = 1 · d⁻¹);
  * something clamped below by one is not zero; the f32 word 0x3F800000 denotes one;
  * the host quotient of two arrays read at an index; and rounding a table to bf16 before a gather, widening after,
    is the plain gather (both conversions are the identity on extended reals).
-/
import Idealize.ShloMosaic.Lib.ValueIdx
import Idealize.ShloMosaic.PureOps.Ideal.Laws

noncomputable section

namespace Cert.LibRecipMean

open Idealize.ShloMosaic Idealize.ShloMosaic.ValueIdx

/-- A product with the reciprocal of a nonzero divisor is the quotient. -/
theorem mul_recip_eq_div (s d : EReal) (hd : d ≠ 0) : s * Ideal.div 1 d = Ideal.div s d := by
  unfold Ideal.div
  rw [if_neg hd, if_neg hd, one_mul]

/-- The f32 word of one denotes one. -/
theorem ofBits_one_f32 : Ideal.ofBits .f32 0x3F800000#32 = 1 := by
  simp [Ideal.ofBits, Ideal.ieee]
  norm_cast
  norm_num

/-- Something clamped below by one is not zero. -/
theorem clamp_ne_zero (y : EReal) : max y 1 ≠ 0 := by
  intro h
  have h1 : (1 : EReal) ≤ max y 1 := le_max_right _ _
  rw [h] at h1
  exact absurd h1 (not_le.mpr (by exact_mod_cast (zero_lt_one : (0 : ℝ) < 1)))

/-- The host quotient of two arrays reads, at an index, the quotient of the entries. -/
theorem hostDivf_apply {s : Shape} {φ : FTy} (a b : FVec Ideal s φ) (i : s.Idx) : Host.divf a b i = Ideal.div (a i) (b i) := rfl

/-- Rounding a table before a gather and widening the gathered rows is the plain gather. -/
theorem gather_rounded {s si t : Shape} {w : Nat} (D : GatherDims s si t) (x : FVec Ideal s .f32) (idx : IVec si w)
    (h : FTy.bits .bf16 < FTy.bits .f32) :
    extf .f32 (Host.gather D (truncf .bf16 x h) idx) h = Host.gather D x idx := rfl

end Cert.LibRecipMean

end
-- ==== Proof.LibRealEntries.lean ====
/-
  Entries that are real numbers, and the array operations that keep them so (at the ideal instance, where a float is
  an extended real). A sum, a product, a maximum and a finite sum of real numbers are real; hence entrywise sums,
  products and maxima of arrays with real entries, their broadcasts, a gather from such an array (each result entry
  is an entry of the operand), an accumulating scatter of such updates into such an operand (each entry gains
  finitely many real updates), and a contraction of two such arrays (finite sums of real products from zero) all
  have real entries. The reciprocal square root of an extended real that is at least one is real (it is 0 at +∞), so a
  reciprocal square root of anything clamped below at one is real, whatever was clamped.
-/
import Idealize.ShloMosaic.PureOps.Ideal.Laws

noncomputable section

namespace Cert.LibRealEntries

open Idealize.ShloMosaic Idealize.ShloMosaic.TcCoe

/-- An extended real that is a real number. -/
def IsReal (x : EReal) : Prop := ∃ y : ℝ, x = (y : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The reciprocal square root of an extended real that is at least one is a real number. -/
theorem isReal_rsqrt_of_one_le {x : EReal} (h : 1 ≤ x) : IsReal (Ideal.rsqrt x) := by
  induction x using EReal.rec with
  | bot =>
    have hlt : (⊥ : EReal) < 1 := by exact_mod_cast EReal.bot_lt_coe 1
    exact absurd h (not_le.mpr hlt)
  | top => exact ⟨0, rfl⟩
  | coe r =>
    have hr : (1 : ℝ) ≤ r := by exact_mod_cast h
    show IsReal (if r < 0 then ⊥ else if r = 0 then ⊤ else (((Real.sqrt r)⁻¹ : ℝ) : EReal))
    rw [if_neg (by linarith), if_neg (by linarith)]
    exact ⟨_, rfl⟩

theorem isReal_zero_word : IsReal (Ideal.ofBits .f32 0x00000000#32) := by
  rw [Ideal.ofBits_zero_f32]; exact IsReal.zero

/-! ## The operations keep entries real (any shapes) -/

section Generic
variable {s t si u sl sr so : Shape} {w : Nat}

theorem real_maximumf (a b : FVec Ideal s .f32) (ha : ∀ i, IsReal (a i)) (hb : ∀ i, IsReal (b i)) (i : s.Idx) :
    IsReal (maximumf a b i) := (ha i).max (hb i)
theorem real_addf (a b : FVec Ideal s .f32) (ha : ∀ i, IsReal (a i)) (hb : ∀ i, IsReal (b i)) (i : s.Idx) :
    IsReal (addf a b i) := (ha i).add (hb i)
theorem real_mulf (a b : FVec Ideal s .f32) (ha : ∀ i, IsReal (a i)) (hb : ∀ i, IsReal (b i)) (i : s.Idx) :
    IsReal (mulf a b i) := (ha i).mul (hb i)
theorem real_bcast (dims : Fin s.rank → Fin t.rank) (h : s.BroadcastsInDim t dims) (x : FVec Ideal s .f32)
    (hx : ∀ i, IsReal (x i)) (j : t.Idx) : IsReal (broadcastInDim t dims h x j) := hx _
theorem real_gather (d : GatherDims s si t) (x : FVec Ideal s .f32) (idx : IVec si w) (hx : ∀ i, IsReal (x i)) (j : t.Idx) :
    IsReal (Host.gather d x idx j) := hx _
theorem real_scatterAdd (d : ScatterDims s si u) (x : FVec Ideal s .f32) (idx : IVec si w) (upd : FVec Ideal u .f32)
    (hx : ∀ i, IsReal (x i)) (hu : ∀ j, IsReal (upd j)) (i : s.Idx) : IsReal (Host.scatterAdd d x idx upd i) :=
  (hx i).add (IsReal.sum _ _ fun j _ => hu j)
theorem real_dot (d : DotDims sl sr so) (prec : Option ContractPrecision) (l : FVec Ideal sl .f32) (r : FVec Ideal sr .f32)
    (hl : ∀ i, IsReal (l i)) (hr : ∀ i, IsReal (r i)) (j : so.Idx) : IsReal (Host.dotGeneral d prec l r j) :=
  IsReal.zero.add (IsReal.sum _ _ fun k _ => (hl _).mul (hr _))
/-- A reciprocal square root of a value clamped below at one. -/
theorem real_rsqrt_clamp (one y : FVec Ideal s .f32) (h1 : ∀ i, one i = 1) (i : s.Idx) :
    IsReal (Host.rsqrt (maximumf one y) i) := by
  show IsReal (Ideal.rsqrt (Max.max (one i) (y i)))
  rw [h1 i]; exact isReal_rsqrt_of_one_le (le_max_left _ _)

end Generic

end Cert.LibRealEntries

end
-- ==== Proof.Finite.lean ====
/-
  Under the precondition every entry of the activation relu(agg · nd + b) is a real number, whatever the edge lists
  hold. A degree normaliser is the reciprocal square root of a count clamped below at one, and the reciprocal square
  root of an extended real that is at least one is real (it is 0 at +∞). A product x·W of real matrices has real
  entries (finite sums of real products); scaling by a real normaliser keeps them real; a gathered row is a row of the
  operand, so real; an accumulating scatter into zeros adds, at each entry, finitely many real updates to zero; the
  bias is real; and the maximum of a real and zero is real.
-/
import proofs.«160708_j19052474925490_1_alg».proof.Proof.Gen.ReferenceIdeal.Read
import proofs.«160708_j19052474925490_1_alg».proof.Proof.LibRecipMean
import proofs.«160708_j19052474925490_1_alg».proof.Proof.LibRealEntries
import Idealize.ShloMosaic.PureOps.Ideal.Laws

noncomputable section

namespace Cert.Finite

open Idealize.ShloMosaic Idealize.ShloMosaic.TcCoe
open Cert.LibRealEntries

/-! ## The reference's stages, up to the activation -/

open Cert.ReferenceIdeal Cert.ReferenceIdeal.Read

section
variable (x0 : (⟨S100000x256, .f32⟩ : BufTy).Contents (Elt Ideal)) (x1 x2 : (⟨S1600000, .i32⟩ : BufTy).Contents (Elt Ideal))
  (x3 : (⟨S256x128, .f32⟩ : BufTy).Contents (Elt Ideal)) (x4 : (⟨S128, .f32⟩ : BufTy).Contents (Elt Ideal))

theorem one_call0 (j : S100000.Idx) : val_main_call0_v1 (F := Ideal) j = 1 :=
  (show val_main_call0_v1 (F := Ideal) j = Ideal.ofBits .f32 0x3F800000#32 from rfl).trans Cert.LibRecipMean.ofBits_one_f32
theorem one_call1 (j : S100000.Idx) : val_main_call1_v1 (F := Ideal) j = 1 :=
  (show val_main_call1_v1 (F := Ideal) j = Ideal.ofBits .f32 0x3F800000#32 from rfl).trans Cert.LibRecipMean.ofBits_one_f32

/-- The source normaliser is real at every node. -/
theorem real_v19 (i : S100000.Idx) : IsReal (val_main_v19 (F := Ideal) x1 i) := by
  unfold val_main_v19 val_main_v9
  exact real_rsqrt_clamp _ _ one_call0 i
/-- The destination normaliser is real at every node. -/
theorem real_v20 (i : S100000.Idx) : IsReal (val_main_v20 (F := Ideal) x2 i) := by
  unfold val_main_v20 val_main_v18
  exact real_rsqrt_clamp _ _ one_call1 i

/-- The product x·W scaled by the source normaliser has real entries when x and W do. -/
theorem real_v24 (h0 : ∀ i, IsReal (x0 i)) (h3 : ∀ i, IsReal (x3 i)) (i : S100000x128.Idx) :
    IsReal (val_main_v24 (F := Ideal) x0 x1 x3 i) := by
  unfold val_main_v24
  refine real_mulf _ _ (fun j => ?_) (fun j => ?_) i
  · unfold val_main_v21; exact real_dot _ _ _ _ h0 h3 j
  · unfold val_main_v23 val_main_v22
    exact real_bcast _ _ _ (fun k => real_bcast _ _ _ (real_v19 x1) k) j

/-- The aggregate: finitely many gathered rows, each real, added to zero. -/
theorem real_v39 (h0 : ∀ i, IsReal (x0 i)) (h3 : ∀ i, IsReal (x3 i)) (i : S100000x128.Idx) :
    IsReal (val_main_v39 (F := Ideal) x0 x1 x2 x3 i) := by
  unfold val_main_v39
  refine real_scatterAdd _ _ _ _ (fun j => ?_) (fun j => ?_) i
  · unfold val_main_v25 val_main_cst_7; exact real_bcast _ _ _ (fun _ => isReal_zero_word) j
  · unfold val_main_v32; exact real_gather _ _ _ (real_v24 x0 x1 x3 h0 h3) j

/-- The activation relu(agg · nd + b) is real at every entry. -/
theorem real_v46 (h0 : ∀ i, IsReal (x0 i)) (h3 : ∀ i, IsReal (x3 i)) (h4 : ∀ i, IsReal (x4 i)) (i : S100000x128.Idx) :
    IsReal (val_main_v46 (F := Ideal) x0 x1 x2 x3 x4 i) := by
  unfold val_main_v46
  refine real_maximumf _ _ (fun j => ?_) (fun j => ?_) i
  · unfold val_main_v45
    refine real_addf _ _ (fun k => ?_) (fun k => ?_) j
    · unfold val_main_v42
      refine real_mulf _ _ (real_v39 x0 x1 x2 x3 h0 h3) (fun l => ?_) k
      unfold val_main_v41 val_main_v40
      exact real_bcast _ _ _ (fun p => real_bcast _ _ _ (real_v20 x2) p) l
    · unfold val_main_v44 val_main_v43
      exact real_bcast _ _ _ (fun p => real_bcast _ _ _ h4 p) k
  · unfold val_main_call2_v0 val_main_call2_cst
    exact real_bcast _ _ _ (fun _ => isReal_zero_word) j

end

end Cert.Finite

end
-- ==== Proof.LibVariance.lean ====
import Idealize.ShloMosaic.PureOps.Ideal
import Mathlib.Tactic.FieldSimp
import Mathlib.Tactic.Ring
import Mathlib.Tactic.NormNum

/-!
# The two forms of a population variance agree on real samples

For samples `f r` that are all real numbers and a count `N` equal to the number of samples,
the mean of the squares minus the square of the mean is the mean of the squared deviations
from the mean:  `(Σ f²)/N − ((Σ f)/N)² = (Σ (f − (Σ f)/N)²)/N`.
On the extended reals the two sides differ when a sample is infinite, so the hypothesis that
every sample is real is needed.  Division is the extended-real division `Ideal.div`; by a nonzero
real it is the product with the reciprocal.
-/

namespace Cert.LibVariance

open Idealize.ShloMosaic

/-- The coercion of reals into the extended reals commutes with finite sums. -/
theorem coe_finset_sum {ι : Type*} (s : Finset ι) (x : ι → ℝ) :
    (∑ r ∈ s, ((x r : ℝ) : EReal)) = ((∑ r ∈ s, x r : ℝ) : EReal) := by
  classical
  induction s using Finset.induction_on with
  | empty => simp
  | insert a s ha ih => rw [Finset.sum_insert ha, Finset.sum_insert ha, ih, EReal.coe_add]

/-- The real identity: with `m = s/N` the mean of `N` samples,
    `(Σ x²)/N − m² = (Σ (x − m)²)/N`. -/
theorem real_variance {n : ℕ} (x : Fin n → ℝ) (N : ℝ) (hN : N = (n : ℝ)) (hn : N ≠ 0) (m : ℝ)
    (hm : m = (∑ r, x r) * (1 / N)) :
    (∑ r, x r * x r) * (1 / N) - m * m = (∑ r, (x r - m) * (x r - m)) * (1 / N) := by
  have hs : (∑ r, x r) = N * m := by rw [hm]; field_simp
  have hsq : ∀ r, (x r - m) * (x r - m) = x r * x r - 2 * m * x r + m * m := fun r => by ring
  have hsum : (∑ r, (x r - m) * (x r - m)) = (∑ r, x r * x r) - 2 * m * (∑ r, x r) + N * (m * m) := by
    simp only [hsq, Finset.sum_add_distrib, Finset.sum_sub_distrib, ← Finset.mul_sum,
      Finset.sum_const, Finset.card_univ, Fintype.card_fin, nsmul_eq_mul, hN]
    ring
  rw [hsum, hs]
  field_simp
  ring

/-- The mean of the squares minus the square of the mean is the mean of the squared deviations,
    for real samples and `N` the (nonzero) number of samples. -/
theorem variance_law {n : ℕ} (f : Fin n → EReal) (hf : ∀ r, ∃ x : ℝ, f r = (x : EReal)) (N : ℝ) (hN : N = (n : ℝ)) (hn : N ≠ 0) :
    Ideal.div (∑ r, f r * f r) (N : EReal) - Ideal.div (∑ r, f r) (N : EReal) * Ideal.div (∑ r, f r) (N : EReal)
      = Ideal.div (∑ r, (f r - Ideal.div (∑ r, f r) (N : EReal)) * (f r - Ideal.div (∑ r, f r) (N : EReal))) (N : EReal) := by
  choose x hx using hf
  obtain rfl : f = fun r => ((x r : ℝ) : EReal) := funext hx
  simp only [Ideal.div_coe hn]
  -- the sum of the samples and the mean, as reals
  have h1 : (∑ r, ((x r : ℝ) : EReal)) = ((∑ r, x r : ℝ) : EReal) := coe_finset_sum _ _
  rw [h1]
  obtain ⟨m, hm⟩ : ∃ m : ℝ, m = (∑ r, x r) * (1 / N) := ⟨_, rfl⟩
  have hmE : ((∑ r, x r : ℝ) : EReal) * ((1 / N : ℝ) : EReal) = (m : EReal) := by
    rw [hm, EReal.coe_mul]
  rw [hmE]
  -- the sum of the squares and the sum of the squared deviations, as reals
  have h2 : (∑ r, ((x r : ℝ) : EReal) * ((x r : ℝ) : EReal)) = ((∑ r, x r * x r : ℝ) : EReal) := by
    simp only [← EReal.coe_mul]; exact coe_finset_sum _ _
  have h3 : (∑ r, (((x r : ℝ) : EReal) - (m : EReal)) * (((x r : ℝ) : EReal) - (m : EReal)))
      = ((∑ r, (x r - m) * (x r - m) : ℝ) : EReal) := by
    simp only [← EReal.coe_sub, ← EReal.coe_mul]; exact coe_finset_sum _ _
  rw [h2, h3, ← EReal.coe_mul, ← EReal.coe_mul, ← EReal.coe_mul, ← EReal.coe_sub]
  exact congrArg _ (real_variance x N hN hn m hm)

/-- The single-precision word `0x47C35000` is the number 100000. -/
theorem ofBits_1e5 : Ideal.ofBits .f32 0x47C35000#32 = ((100000 : ℝ) : EReal) := by
  simp [Ideal.ofBits, Ideal.ieee, -EReal.coe_mul]; norm_num

end Cert.LibVariance
-- ==== Proof.Bridge.lean ====
/-
  The idealized kernel's result is the reference's, entry by entry, when every float input is finite.

  Row r, column q of the kernel's result is (h2 − μ)·ρ·γ + β with h2 the second region's activations, μ the column
  sum of h2 over the number of rows N, and ρ the reciprocal square root of (Σ h2²)/N − μ² + ε. The first region's
  result is the reference's scaled product x·W (same sum over the contracted axis, same source normaliser); the host's
  message passing is the same operation on both sides, so the aggregates agree; hence the activations agree entry by
  entry, and with them the column sums and the means. The reference's variance is (Σ (h2 − μ)²)/N: the two variances
  agree because every activation is a real number under the precondition (at an infinity they would not: ∞ − ∞), and
  for real samples Σ(x − m)² = Σx² − N·m² with m the mean. The scale, the shift and ε enter both sides alike.
-/
import proofs.«160708_j19052474925490_1_alg».proof.Proof.Entries
import proofs.«160708_j19052474925490_1_alg».proof.Proof.Region0
import proofs.«160708_j19052474925490_1_alg».proof.Proof.Region1
import proofs.«160708_j19052474925490_1_alg».proof.Proof.Region2
import proofs.«160708_j19052474925490_1_alg».proof.Proof.RefEntries
import proofs.«160708_j19052474925490_1_alg».proof.Proof.Finite
import proofs.«160708_j19052474925490_1_alg».proof.Proof.LibVariance

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open Cert.LibRealEntries (IsReal)

variable (m : (ℓ : Loc nD τ sig) → Buf (Elt Ideal) ℓ) (ρ : Dev nD → PrngReg) (c : Dev nD)

/-- The degree normaliser is the reference's, on either edge list. -/
theorem normOf_eq_v19 (i : (⟨S1600000, .i32⟩ : BufTy).Contents (Elt Ideal)) : normOf i = Cert.ReferenceIdeal.Read.val_main_v19 (F := Ideal) i := rfl
theorem normOf_eq_v20 (i : (⟨S1600000, .i32⟩ : BufTy).Contents (Elt Ideal)) : normOf i = Cert.ReferenceIdeal.Read.val_main_v20 (F := Ideal) i := rfl

/-- The first region leaves the reference's scaled product x·W. -/
theorem first_eq : ((dat0 (F := Ideal) (V5 m ρ) c).arrAt 3 cfg0.N : Buf (Elt Ideal) ((c : Thread nD τ).loc main_v23))
    = Cert.ReferenceIdeal.Read.val_main_v24 (F := Ideal) (m ((c : Thread nD τ).loc main_arg0)) (m ((c : Thread nD τ).loc main_arg1)) (m ((c : Thread nD τ).loc main_arg3)) := by
  funext i
  obtain ⟨r, q, rfl⟩ : ∃ (r : Fin 100000) (q : Fin 128), i = ix2 r q := ⟨i 0, i 1, eq_ix2 i⟩
  rw [region0_arr (V5 m ρ) c (m ((c : Thread nD τ).loc main_arg0)) (m ((c : Thread nD τ).loc main_arg3)) (normOf (m ((c : Thread nD τ).loc main_arg1)))
    (W5_arg0 m ρ c) (W5_arg3 m ρ c) (W5_v20 m ρ c) r q, Cert.ReferenceIdeal.RefValue.v24_entry, normOf_eq_v19]

/-- The aggregate the second region reads is the reference's. -/
theorem agg_eq : (V7 m ρ c main_v38 : (⟨S100000x128, .f32⟩ : BufTy).Contents (Elt Ideal))
    = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) := by
  rw [V7_v38 m ρ c, first_eq m ρ c]
  rfl

/-- The activation formula at the reference's aggregate and normaliser is the reference's activation. -/
theorem h2Of_eq (r : Fin 100000) (q : Fin 128) :
    h2Of (Cert.ReferenceIdeal.Read.val_main_v39 (F := Ideal) (m ((c : Thread nD τ).loc main_arg0)) (m ((c : Thread nD τ).loc main_arg1)) (m ((c : Thread nD τ).loc main_arg2)) (m ((c : Thread nD τ).loc main_arg3))) (normOf (m ((c : Thread nD τ).loc main_arg2))) (m ((c : Thread nD τ).loc main_arg4)) r q = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q) := by
  rw [Cert.ReferenceIdeal.RefValue.v46_entry, normOf_eq_v20]
  rfl

/-- The second region's activations are the reference's, entry by entry, … -/
theorem act_eq (r : Fin 100000) (q : Fin 128) :
    ((dat1 (F := Ideal) (V7 m ρ) c).arrAt 3 cfg1.N : Buf (Elt Ideal) ((c : Thread nD τ).loc main_v40_0)) (ix2 r q) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q) := by
  rw [region1_h2 (V7 m ρ) c (Cert.ReferenceIdeal.Read.val_main_v39 (F := Ideal) (m ((c : Thread nD τ).loc main_arg0)) (m ((c : Thread nD τ).loc main_arg1)) (m ((c : Thread nD τ).loc main_arg2)) (m ((c : Thread nD τ).loc main_arg3))) (normOf (m ((c : Thread nD τ).loc main_arg2))) (m ((c : Thread nD τ).loc main_arg4)) (agg_eq m ρ c) (V7_v22 m ρ c) (V7_v39 m ρ c) r q]
  exact h2Of_eq m c r q

/-- … its first accumulator their column sums, … -/
theorem sum_eq (q : Fin 128) :
    (((dat1 (F := Ideal) (V7 m ρ) c).arrAt 4 cfg1.N : Buf (Elt Ideal) ((c : Thread nD τ).loc main_v40_1)) (ix2 (0 : Fin 1) q) : EReal)
      = ∑ r : Fin 100000, (Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q) : EReal) := by
  refine (region1_sum (V7 m ρ) c (Cert.ReferenceIdeal.Read.val_main_v39 (F := Ideal) (m ((c : Thread nD τ).loc main_arg0)) (m ((c : Thread nD τ).loc main_arg1)) (m ((c : Thread nD τ).loc main_arg2)) (m ((c : Thread nD τ).loc main_arg3))) (normOf (m ((c : Thread nD τ).loc main_arg2))) (m ((c : Thread nD τ).loc main_arg4)) (agg_eq m ρ c) (V7_v22 m ρ c) (V7_v39 m ρ c) q).trans ?_
  simp only [h2Of_eq m c] <;> rfl

/-- … and its second accumulator the column sums of their squares. -/
theorem sumsq_eq (q : Fin 128) :
    (((dat1 (F := Ideal) (V7 m ρ) c).arrAt 5 cfg1.N : Buf (Elt Ideal) ((c : Thread nD τ).loc main_v40_2)) (ix2 (0 : Fin 1) q) : EReal)
      = ∑ r : Fin 100000, ((Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q) : EReal) * (Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q) : EReal)) := by
  refine (region1_sumsq (V7 m ρ) c (Cert.ReferenceIdeal.Read.val_main_v39 (F := Ideal) (m ((c : Thread nD τ).loc main_arg0)) (m ((c : Thread nD τ).loc main_arg1)) (m ((c : Thread nD τ).loc main_arg2)) (m ((c : Thread nD τ).loc main_arg3))) (normOf (m ((c : Thread nD τ).loc main_arg2))) (m ((c : Thread nD τ).loc main_arg4)) (agg_eq m ρ c) (V7_v22 m ρ c) (V7_v39 m ρ c) q).trans ?_
  simp only [h2Of_eq m c] <;> rfl

/-- The kernel's mean row is the reference's mean. -/
theorem mean_eq (q : Fin 128) :
    Ideal.div (((dat1 (F := Ideal) (V7 m ρ) c).arrAt 4 cfg1.N : Buf (Elt Ideal) ((c : Thread nD τ).loc main_v40_1)) (ix2 (0 : Fin 1) q)) (Ideal.ofBits .f32 0x47C35000#32)
      = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix1 q) := by
  rw [sum_eq m ρ c q, Cert.ReferenceIdeal.RefValue.v49_entry]

/-- The two variances agree when the activations are real: the mean of squares less the squared mean is the mean of
    the squared deviations. -/
theorem var_eq (hreal : ∀ i, IsReal (Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i)) (q : Fin 128) :
    Ideal.div (((dat1 (F := Ideal) (V7 m ρ) c).arrAt 5 cfg1.N : Buf (Elt Ideal) ((c : Thread nD τ).loc main_v40_2)) (ix2 (0 : Fin 1) q)) (Ideal.ofBits .f32 0x47C35000#32)
        - Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix1 q) * Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix1 q)
      = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix1 q) := by
  rw [sumsq_eq m ρ c q, Cert.ReferenceIdeal.RefValue.v56_entry, Cert.ReferenceIdeal.RefValue.v49_entry, Cert.LibVariance.ofBits_1e5]
  exact Cert.LibVariance.variance_law (fun r : Fin 100000 => Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q)) (fun r => hreal (ix2 r q)) 100000 (by norm_num) (by norm_num)

/-- The kernel's result is the reference's result, entry by entry, when x, W and b hold real numbers. -/
theorem result_eq (h0 : ∀ i, IsReal ((m ((c : Thread nD τ).loc main_arg0)) i)) (h3 : ∀ i, IsReal ((m ((c : Thread nD τ).loc main_arg3)) i)) (h4 : ∀ i, IsReal ((m ((c : Thread nD τ).loc main_arg4)) i)) :
    (W10 m ρ c (Proc.devRef .tc main_v52) : Buf (Elt Ideal) ((c : Thread nD τ).loc main_v52))
      = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hreal : ∀ i, IsReal (Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i) := Cert.Finite.real_v46 _ _ _ _ _ h0 h3 h4
  have e5 : W10 m ρ c (Proc.devRef .tc main_v52) = (dat2 (F := Ideal) (V9 m ρ) c).arrAt 5 cfg2.N := W10_arr m ρ c 5
  rw [e5]
  funext i
  obtain ⟨r, q, rfl⟩ : ∃ (r : Fin 100000) (q : Fin 128), i = ix2 r q := ⟨i 0, i 1, eq_ix2 i⟩
  rw [region2_arr (V9 m ρ) c _ _ _ (m ((c : Thread nD τ).loc main_arg5)) (m ((c : Thread nD τ).loc main_arg6)) (V9_v40_0 m ρ c) (V9_v42 m ρ c) (V9_v49 m ρ c) (V9_v50 m ρ c) (V9_v51 m ρ c) r q,
    Cert.ReferenceIdeal.RefValue.v71_entry, act_eq m ρ c r q]
  have hmu := mean_eq m ρ c q
  have hvar := var_eq m ρ c hreal q
  -- the mean row and the reciprocal deviation row, read at column q
  show (Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q) - Ideal.div (((dat1 (F := Ideal) (V7 m ρ) c).arrAt 4 cfg1.N : Buf (Elt Ideal) ((c : Thread nD τ).loc main_v40_1)) (ix2 (0 : Fin 1) q)) (Ideal.ofBits .f32 0x47C35000#32))
      * Ideal.rsqrt ((Ideal.div (((dat1 (F := Ideal) (V7 m ρ) c).arrAt 5 cfg1.N : Buf (Elt Ideal) ((c : Thread nD τ).loc main_v40_2)) (ix2 (0 : Fin 1) q)) (Ideal.ofBits .f32 0x47C35000#32)
          - Ideal.div (((dat1 (F := Ideal) (V7 m ρ) c).arrAt 4 cfg1.N : Buf (Elt Ideal) ((c : Thread nD τ).loc main_v40_1)) (ix2 (0 : Fin 1) q)) (Ideal.ofBits .f32 0x47C35000#32)
            * Ideal.div (((dat1 (F := Ideal) (V7 m ρ) c).arrAt 4 cfg1.N : Buf (Elt Ideal) ((c : Thread nD τ).loc main_v40_1)) (ix2 (0 : Fin 1) q)) (Ideal.ofBits .f32 0x47C35000#32))
          + Ideal.ofBits .f32 0x3727C5AC#32)
      * (m ((c : Thread nD τ).loc main_arg5)) (ix1 q) + (m ((c : Thread nD τ).loc main_arg6)) (ix1 q) = _
  rw [hmu, hvar]

end Cert.KernelIdeal.Val

end
-- ==== Proof.PreReal.lean ====
import proofs.«160708_j19052474925490_1_alg».proof.Defs
import Idealize.ShloMosaic.Lib.ReduceAll
import Idealize.ShloMosaic.Lib.ValueIdx
import Idealize.ShloMosaic.PureOps.Ideal.Laws

/-!
# The precondition, decoded: the float arguments have only real entries

The precondition says, for each float argument `a`, that `|a| < +∞` holds at every entry (an all-reduce by
`and` of the entrywise comparison against the single-precision word of `+∞`), the five statements joined by `and`,
and that the result is 1.  On the extended reals `|a| = max a (−a)`, which is `+∞` exactly when `a` is `+∞` or
`−∞`; so `|a| < +∞` says that `a` is a real number.  Here: every entry of the features, of the weights and of the
bias is a real number.
-/

noncomputable section

namespace Cert.PreReal

open Idealize.ShloMosaic Idealize.ShloMosaic.TcCoe Idealize.SL.Sem

/-- The shape with no axes has one index. -/
instance subsingleton_scalar_idx : Subsingleton (⟨0, ![]⟩ : Shape).Idx := ⟨fun a b => funext fun d => d.elim0⟩

/-- The single-precision word `0x7F800000` is `+∞`. -/
theorem ofBits_inf : Ideal.ofBits .f32 0x7F800000#32 = (⊤ : EReal) := by simp [Ideal.ofBits, Ideal.ieee]

/-- A truth value's word is 1 only when the truth value is true. -/
theorem eq_true_of_ofBool_eq_one {b : Bool} (h : BitVec.ofBool b = 1#1) : b = true := by
  cases b
  · exact absurd h (by decide)
  · rfl

/-- The entrywise `and` of two arrays of words, read at an index. -/
theorem andi_apply {s : Shape} {w : Nat} (a b : IVec s w) (i : s.Idx) : andi a b i = IntOp.andi (a i) (b i) := rfl

/-- An extended real whose absolute value `max x (−x)` is below `+∞` is a real number. -/
theorem real_of_abs_lt_top (x : EReal) (h : max x (-x) < ⊤) : ∃ y : ℝ, x = (y : EReal) := by
  induction x using EReal.rec with
  | bot => simp at h
  | coe y => exact ⟨y, rfl⟩
  | top => simp at h

/-- ONE ARRAY: if the all-reduce by `and` (from any initial word) of the entrywise `|v| < +∞` is 1, every entry of
    `v` is a real number.  Generic in the array's shape and in the reduced axes. -/
theorem real_of_all_abs_lt_inf {s : Shape} {axes : List (Fin s.rank)} (v : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel) (init : IVec (⟨0, ![]⟩ : Shape) 1)
    (e : Host.reduce IntOp.andi
        (cmpf .olt (Host.absf v) (broadcastInDim s ![] hb (constant (F := Ideal) (⟨0, ![]⟩ : Shape) .f32 0x7F800000#32)))
        init hr hu ValueIdx.ix0 = 1#1)
    (i : s.Idx) : ∃ y : ℝ, v i = (y : EReal) := by
  have h1 := Host.reduce_andi_all _ init hr hu ValueIdx.ix0 e i
  have h2 : Ideal.cmp .olt (max (v i) (-(v i))) (Ideal.ofBits .f32 0x7F800000#32) = 1#1 := h1
  rw [ofBits_inf] at h2
  have h3 : BitVec.ofBool (decide (max (v i) (-(v i)) < ⊤)) = 1#1 := h2
  exact real_of_abs_lt_top (v i) (of_decide_eq_true (eq_true_of_ofBool_eq_one h3))

/-- The precondition on the launch contents gives: every entry of the features (argument 0), of the weights
    (argument 3) and of the bias (argument 4) is a real number. -/
theorem pre_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i : Cert.KernelIdeal.S100000x256.Idx, ∃ y : ℝ, m ((c.tc : Thread Cert.KernelIdeal.nD Cert.KernelIdeal.τ).loc Cert.KernelIdeal.main_arg0) i = (y : EReal))
    ∧ (∀ i : Cert.KernelIdeal.S256x128.Idx, ∃ y : ℝ, m ((c.tc : Thread Cert.KernelIdeal.nD Cert.KernelIdeal.τ).loc Cert.KernelIdeal.main_arg3) i = (y : EReal))
    ∧ (∀ i : Cert.KernelIdeal.S128.Idx, ∃ y : ℝ, m ((c.tc : Thread Cert.KernelIdeal.nD Cert.KernelIdeal.τ).loc Cert.KernelIdeal.main_arg4) i = (y : EReal)) := by
  have h0 := congrFun (h c) ValueIdx.ix0
  dsimp only [Cert.Pre_finite_inputs.fn, Cert.Pre_finite_inputs.fn_part1] at h0
  simp only [andi_apply, IntOp.andi_eq_one] at h0
  obtain ⟨⟨⟨⟨e0, e3⟩, e4⟩, -⟩, -⟩ := h0
  exact ⟨fun i => real_of_all_abs_lt_inf _ _ _ _ _ e0 i, fun i => real_of_all_abs_lt_inf _ _ _ _ _ e3 i,
    fun i => real_of_all_abs_lt_inf _ _ _ _ _ e4 i⟩

end Cert.PreReal

end
-- ==== Proof.lean ====
/-
  The certificate of a graph-convolution block with batch normalisation: three tiled kernels — h = (x·W)·norm_src by
  row blocks; h2 = relu(agg·norm_dst + b) with the column sums of h2 and of h2² accumulated across the row blocks;
  y = (h2 − μ)·ρ·γ + β by row blocks — among host operations (degree counting, the gather and accumulating scatter of
  the message passing, the batch statistics), against the plain reference.

  The three frames: the two kernel programs' are the generated several-region frame certificates; the reference has no
  kernel and its frame is its generated run with the result dropped. The idealization rewrote nothing, so the
  idealized program is the kernel's own text read over the extended reals. The value claim: the idealized kernel's run
  ends with its result array at what the third region's write-backs leave, which is, entry by entry, the reference's
  result — the reference computes the variance as the mean of squared deviations, the kernel as the mean of squares
  less the squared mean, and the two agree because finite inputs make every activation a real number.
-/
import proofs.«160708_j19052474925490_1_alg».proof.Defs
import proofs.«160708_j19052474925490_1_alg».proof.Proof.Gen.Kernel
import proofs.«160708_j19052474925490_1_alg».proof.Proof.Gen.Kernel.Frame
import proofs.«160708_j19052474925490_1_alg».proof.Proof.Gen.KernelIdeal
import proofs.«160708_j19052474925490_1_alg».proof.Proof.Gen.KernelIdeal.Frame
import proofs.«160708_j19052474925490_1_alg».proof.Proof.Gen.ReferenceIdeal
import proofs.«160708_j19052474925490_1_alg».proof.Proof.Gen.ReferenceIdeal.Run
import proofs.«160708_j19052474925490_1_alg».proof.Proof.Gen.ReferenceIdeal.Read
import proofs.«160708_j19052474925490_1_alg».proof.Proof.Gen.Pre_finite_inputs
import proofs.«160708_j19052474925490_1_alg».proof.Proof.KernelRun
import proofs.«160708_j19052474925490_1_alg».proof.Proof.Bridge
import proofs.«160708_j19052474925490_1_alg».proof.Proof.PreReal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments, with every float input finite, both idealized programs run and end with
    equal results: the kernel's at what its third region leaves, the reference's at its last stage, one function of
    the arguments. -/
theorem algebraic : Cert.algebraic_KernelIdeal_ReferenceIdeal := by
  intro m ρ m' ρ' hpre hagree
  refine ⟨fun c => Cert.KernelIdeal.Gen.W10 m ρ c (Proc.devRef .tc Cert.KernelIdeal.main_v52), Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h3, h4⟩ := Cert.PreReal.pre_real m hpre c
  rw [Cert.ReferenceIdeal.Read.val_main_v71_eq, (hagree c).1, (hagree c).2.1, (hagree c).2.2.1, (hagree c).2.2.2.1,
    (hagree c).2.2.2.2.1, (hagree c).2.2.2.2.2.1, (hagree c).2.2.2.2.2.2]
  exact (Cert.KernelIdeal.Val.result_eq m ρ c h0 h3 h4).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
